-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S_ : Shape := ⟨0, ![]⟩

class Facts : Prop where
  bcast_S_S30000x256 : S_.BroadcastsInDim S30000x256 (![] : Fin 0 → Fin S30000x256.rank)
  reducesTo_S30000x256_S_d0_1 : S30000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S10000x256 : S_.BroadcastsInDim S10000x256 (![] : Fin 0 → Fin S10000x256.rank)
  reducesTo_S10000x256_S_d0_1 : S10000x256.ReducesTo [0, 1] S_
  bcast_S_S262144 : S_.BroadcastsInDim S262144 (![] : Fin 0 → Fin S262144.rank)
  reducesTo_S262144_S_d0 : S262144.ReducesTo [0] S_
  bcast_S_S131072 : S_.BroadcastsInDim S131072 (![] : Fin 0 → Fin S131072.rank)
  reducesTo_S131072_S_d0 : S131072.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg17 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg13 : FVec F S256 .f32) (main_arg14 : FVec F S256x256 .f32) (main_arg15 : FVec F S256 .f32) (main_arg16 : FVec F S256x256 .f32) (main_arg17 : FVec F S256 .f32) (main_v33 : IVec S_ 1) : IVec S_ 1 :=
  let main_v34 : FVec F S256 .f32 := Host.absf main_arg13
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_v48 main_v49 main_v50

def fn_part1 {F : FTy → Type} [FloatOps F] (main_arg10 : FVec F S262144 .f32) (main_arg11 : FVec F S131072 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S262144 .f32 := Host.absf main_arg10
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  let main_v24 : FVec F S131072 .f32 := Host.absf main_arg11
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_v33

def fn {F : FTy → Type} [FloatOps F] (main_arg0 : FVec F S30000x256 .f32) (main_arg1 : FVec F S512x256 .f32) (main_arg2 : FVec F S10000x256 .f32) (main_arg3 : IVec S262144 32) (main_arg4 : IVec S262144 32) (main_arg5 : IVec S262144 32) (main_arg6 : IVec S262144 32) (main_arg7 : IVec S131072 32) (main_arg8 : IVec S131072 32) (main_arg9 : FVec F S262144 .f32) (main_arg10 : FVec F S262144 .f32) (main_arg11 : FVec F S131072 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) : IVec S_ 1 :=
  let main_v0 : FVec F S30000x256 .f32 := Host.absf main_arg0
  let main_cst : FVec F S_ .f32 := constant S_ .f32 0x7F800000#32
  let main_v1 : FVec F S30000x256 .f32 := broadcastInDim S30000x256 ![] bcast_S_S30000x256 main_cst
  let main_v2 : IVec S30000x256 1 := cmpf .olt main_v0 main_v1
  let main_c : IVec S_ 1 := constantI S_ 1 1#1
  let main_v3 : IVec S_ 1 := (fun x v => Host.reduce IntOp.andi x v reducesTo_S30000x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S262144 .f32 := Host.absf main_arg9
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg10 main_arg11 main_arg12 main_arg13 main_arg14 main_arg15 main_arg16 main_arg17 main_v13 main_v16
-- ==== Kernel.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S1x256 : Shape := ⟨2, ![1, 256]⟩
abbrev S3000x256 : Shape := ⟨2, ![3000, 256]⟩
abbrev S_ : Shape := ⟨0, ![]⟩
abbrev S262144x1 : Shape := ⟨2, ![262144, 1]⟩
abbrev S262144x256 : Shape := ⟨2, ![262144, 256]⟩
abbrev S512 : Shape := ⟨1, ![512]⟩
abbrev S512x1 : Shape := ⟨2, ![512, 1]⟩
abbrev S10000 : Shape := ⟨1, ![10000]⟩
abbrev S10000x1 : Shape := ⟨2, ![10000, 1]⟩
abbrev S131072x1 : Shape := ⟨2, ![131072, 1]⟩
abbrev S131072x256 : Shape := ⟨2, ![131072, 256]⟩

abbrev nBuf : Space → Nat
  | .hbm => 119
  | .vmem => 10
  | .smem => 0
  | _ => 0

abbrev bufTy : (tb : Table) → Fin (tcTables nBuf tb) → BufTy
  | .hbm, ⟨0, _⟩ => ⟨S30000x256, .f32⟩
  | .hbm, ⟨1, _⟩ => ⟨S512x256, .f32⟩
  | .hbm, ⟨2, _⟩ => ⟨S10000x256, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S262144, .i32⟩
  | .hbm, ⟨7, _⟩ => ⟨S131072, .i32⟩
  | .hbm, ⟨8, _⟩ => ⟨S131072, .i32⟩
  | .hbm, ⟨9, _⟩ => ⟨S262144, .f32⟩
  | .hbm, ⟨10, _⟩ => ⟨S262144, .f32⟩
  | .hbm, ⟨11, _⟩ => ⟨S131072, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S1x256, .f32⟩
  | .hbm, ⟨19, _⟩ => ⟨S1x256, .f32⟩
  | .hbm, ⟨20, _⟩ => ⟨S30000x256, .bf16⟩
  | .hbm, ⟨21, _⟩ => ⟨S30000x256, .bf16⟩
  | .hbm, ⟨22, _⟩ => ⟨S512x256, .bf16⟩
  | .hbm, ⟨23, _⟩ => ⟨S256x256, .bf16⟩
  | .hbm, ⟨24, _⟩ => ⟨S256x256, .bf16⟩
  | .hbm, ⟨25, _⟩ => ⟨S512x256, .f32⟩
  | .hbm, ⟨26, _⟩ => ⟨S1x256, .f32⟩
  | .hbm, ⟨27, _⟩ => ⟨S512x256, .f32⟩
  | .hbm, ⟨28, _⟩ => ⟨S512x256, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x256, .bf16⟩
  | .hbm, ⟨38, _⟩ => ⟨S262144x256, .f32⟩
  | .hbm, ⟨39, _⟩ => ⟨S262144x1, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S512x256, .f32⟩
  | .hbm, ⟨44, _⟩ => ⟨S262144x1, .i32⟩
  | .hbm, ⟨45, _⟩ => ⟨S512x256, .f32⟩
  | .hbm, ⟨46, _⟩ => ⟨S_, .f32⟩
  | .hbm, ⟨47, _⟩ => ⟨S262144, .f32⟩
  | .hbm, ⟨48, _⟩ => ⟨S_, .f32⟩
  | .hbm, ⟨49, _⟩ => ⟨S512, .f32⟩
  | .hbm, ⟨50, _⟩ => ⟨S262144x1, .i32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512, .f32⟩
  | .hbm, ⟨55, _⟩ => ⟨S512x1, .f32⟩
  | .hbm, ⟨56, _⟩ => ⟨S512x256, .f32⟩
  | .hbm, ⟨57, _⟩ => ⟨S512x256, .f32⟩
  | .hbm, ⟨58, _⟩ => ⟨S_, .i32⟩
  | .hbm, ⟨59, _⟩ => ⟨S262144, .i32⟩
  | .hbm, ⟨60, _⟩ => ⟨S262144, .i1⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S262144, .i32⟩
  | .hbm, ⟨65, _⟩ => ⟨S262144x1, .i32⟩
  | .hbm, ⟨66, _⟩ => ⟨S262144x256, .bf16⟩
  | .hbm, ⟨67, _⟩ => ⟨S262144x256, .f32⟩
  | .hbm, ⟨68, _⟩ => ⟨S262144x1, .f32⟩
  | .hbm, ⟨69, _⟩ => ⟨S262144x256, .f32⟩
  | .hbm, ⟨70, _⟩ => ⟨S262144x256, .f32⟩
  | .hbm, ⟨71, _⟩ => ⟨S_, .f32⟩
  | .hbm, ⟨72, _⟩ => ⟨S10000x256, .f32⟩
  | .hbm, ⟨73, _⟩ => ⟨S262144x1, .i32⟩
  | .hbm, ⟨74, _⟩ => ⟨S10000x256, .f32⟩
  | .hbm, ⟨75, _⟩ => ⟨S_, .f32⟩
  | .hbm, ⟨76, _⟩ => ⟨S262144, .f32⟩
  | .hbm, ⟨77, _⟩ => ⟨S_, .f32⟩
  | .hbm, ⟨78, _⟩ => ⟨S10000, .f32⟩
  | .hbm, ⟨79, _⟩ => ⟨S262144x1, .i32⟩
  | .hbm, ⟨80, _⟩ => ⟨S10000, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S10000x1, .f32⟩
  | .hbm, ⟨85, _⟩ => ⟨S10000x256, .f32⟩
  | .hbm, ⟨86, _⟩ => ⟨S10000x256, .f32⟩
  | .hbm, ⟨87, _⟩ => ⟨S_, .i32⟩
  | .hbm, ⟨88, _⟩ => ⟨S131072, .i32⟩
  | .hbm, ⟨89, _⟩ => ⟨S131072, .i1⟩
  | .hbm, ⟨90, _⟩ => ⟨S_, .i32⟩
  | .hbm, ⟨91, _⟩ => ⟨S131072, .i32⟩
  | .hbm, ⟨92, _⟩ => ⟨S131072, .i32⟩
  | .hbm, ⟨93, _⟩ => ⟨S131072, .i32⟩
  | .hbm, ⟨94, _⟩ => ⟨S131072x1, .i32⟩
  | .hbm, ⟨95, _⟩ => ⟨S131072x256, .f32⟩
  | .hbm, ⟨96, _⟩ => ⟨S131072x1, .f32⟩
  | .hbm, ⟨97, _⟩ => ⟨S131072x256, .f32⟩
  | .hbm, ⟨98, _⟩ => ⟨S131072x256, .f32⟩
  | .hbm, ⟨99, _⟩ => ⟨S_, .f32⟩
  | .hbm, ⟨100, _⟩ => ⟨S10000x256, .f32⟩
  | .hbm, ⟨101, _⟩ => ⟨S131072x1, .i32⟩
  | .hbm, ⟨102, _⟩ => ⟨S10000x256, .f32⟩
  | .hbm, ⟨103, _⟩ => ⟨S_, .f32⟩
  | .hbm, ⟨104, _⟩ => ⟨S131072, .f32⟩
  | .hbm, ⟨105, _⟩ => ⟨S_, .f32⟩
  | .hbm, ⟨106, _⟩ => ⟨S10000, .f32⟩
  | .hbm, ⟨107, _⟩ => ⟨S131072x1, .i32⟩
  | .hbm, ⟨108, _⟩ => ⟨S10000, .f32⟩
  | .hbm, ⟨109, _⟩ => ⟨S_, .f32⟩
  | .hbm, ⟨110, _⟩ => ⟨S10000, .f32⟩
  | .hbm, ⟨111, _⟩ => ⟨S10000, .f32⟩
  | .hbm, ⟨112, _⟩ => ⟨S10000x1, .f32⟩
  | .hbm, ⟨113, _⟩ => ⟨S10000x256, .f32⟩
  | .hbm, ⟨114, _⟩ => ⟨S10000x256, .f32⟩
  | .hbm, ⟨115, _⟩ => ⟨S10000x256, .f32⟩
  | .hbm, ⟨116, _⟩ => ⟨S_, .f32⟩
  | .hbm, ⟨117, _⟩ => ⟨S10000x256, .f32⟩
  | .hbm, ⟨118, _⟩ => ⟨S10000x256, .f32⟩
  | .local _ .vmem, ⟨0, _⟩ => ⟨S3000x256, .f32⟩
  | .local _ .vmem, ⟨1, _⟩ => ⟨S3000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S3000x256, .bf16⟩
  | .local _ .vmem, ⟨7, _⟩ => ⟨S3000x256, .bf16⟩
  | .local _ .vmem, ⟨8, _⟩ => ⟨S3000x256, .bf16⟩
  | .local _ .vmem, ⟨9, _⟩ => ⟨S3000x256, .bf16⟩
  | _, _ => ⟨S30000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call0_cst : Ref sig .tc := ⟨.hbm, 116, rfl⟩
abbrev main_call0_v0 : Ref sig .tc := ⟨.hbm, 117, rfl⟩
abbrev main_v79 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  inb_S3000x256_S3000x256_0_0 : ∀ a, (![0, 0] : Fin 2 → Nat) a + S3000x256.size a ≤ S3000x256.size a
  h_S3000x256 : 0 < S3000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  packedbf16_S3000x256_S3000x256_0_0 : (Rect.unit (s := S3000x256) ![0, 0] S3000x256.size inb_S3000x256_S3000x256_0_0).PackedRows (EltTy.packing .bf16)
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  dot_S3000x256_S256x256_S3000x256_1_0_0_1_n_n_wf : DotDims.WF S3000x256 S256x256 S3000x256 [1] [0] [0] [1] [] []
  dot_S512x256_S256x256_S512x256_1_0_0_1_n_n_wf : DotDims.WF S512x256 S256x256 S512x256 [1] [0] [0] [1] [] []
  gather_S30000x256_S262144x1_S262144x256_1_0_n_n_0_1_1256_wf : GatherDims.WF S30000x256 S262144x1 S262144x256 [1] [0] [] [0] [] 1 ![1, 256]
  scatter_S512x256_S262144x1_S262144x256_1_0_0_1_wf : ScatterDims.WF S512x256 S262144x1 S262144x256 [1] [0] [0] 1
  scatter_S512_S262144x1_S262144_n_0_0_1_wf : ScatterDims.WF S512 S262144x1 S262144 [] [0] [0] 1
  scatter_S10000x256_S262144x1_S262144x256_1_0_0_1_wf : ScatterDims.WF S10000x256 S262144x1 S262144x256 [1] [0] [0] 1
  scatter_S10000_S262144x1_S262144_n_0_0_1_wf : ScatterDims.WF S10000 S262144x1 S262144 [] [0] [0] 1
  gather_S512x256_S131072x1_S131072x256_1_0_n_n_0_1_1256_wf : GatherDims.WF S512x256 S131072x1 S131072x256 [1] [0] [] [0] [] 1 ![1, 256]
  scatter_S10000x256_S131072x1_S131072x256_1_0_0_1_wf : ScatterDims.WF S10000x256 S131072x1 S131072x256 [1] [0] [0] 1
  scatter_S10000_S131072x1_S131072_n_0_0_1_wf : ScatterDims.WF S10000 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S30000x256.size a
  hwx0_0 : ∀ i : grid0.Coords, EltTy.bits .f32 = 32 ∨ (Rect.block (s := S30000x256) S3000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x256.size a ≤ S30000x256.size a
  hwx0_5 : ∀ i : grid0.Coords, EltTy.bits .bf16 = 32 ∨ (Rect.block (s := S30000x256) S3000x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3000x256.size a ≤ S30000x256.size a
  hwx0_6 : ∀ i : grid0.Coords, EltTy.bits .bf16 = 32 ∨ (Rect.block (s := S30000x256) S3000x256.size (cc0_transform_6 i) (hinb0_6 i)).WholeWords (EltTy.packing .bf16)

variable [Facts₀]

def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S30000x256_S262144x1_S262144x256_1_0_n_n_0_1_1256 : GatherDims S30000x256 S262144x1 S262144x256 where
  offsetDims := [1]
  collapsedSliceDims := [0]
  operandBatchingDims := []
  startIndicesBatchingDims := []
  startIndexMap := [0]
  indexVectorDim := 1
  sliceSizes := ![1, 256]
  wf := gather_S30000x256_S262144x1_S262144x256_1_0_n_n_0_1_1256_wf
def scatter_S512x256_S262144x1_S262144x256_1_0_0_1 : ScatterDims S512x256 S262144x1 S262144x256 where
  updateWindowDims := [1]
  insertedWindowDims := [0]
  scatterDimsToOperandDims := [0]
  indexVectorDim := 1
  wf := scatter_S512x256_S262144x1_S262144x256_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def scatter_S10000x256_S262144x1_S262144x256_1_0_0_1 : ScatterDims S10000x256 S262144x1 S262144x256 where
  updateWindowDims := [1]
  insertedWindowDims := [0]
  scatterDimsToOperandDims := [0]
  indexVectorDim := 1
  wf := scatter_S10000x256_S262144x1_S262144x256_1_0_0_1_wf
def scatter_S10000_S262144x1_S262144_n_0_0_1 : ScatterDims S10000 S262144x1 S262144 where
  updateWindowDims := []
  insertedWindowDims := [0]
  scatterDimsToOperandDims := [0]
  indexVectorDim := 1
  wf := scatter_S10000_S262144x1_S262144_n_0_0_1_wf
def gather_S512x256_S131072x1_S131072x256_1_0_n_n_0_1_1256 : GatherDims S512x256 S131072x1 S131072x256 where
  offsetDims := [1]
  collapsedSliceDims := [0]
  operandBatchingDims := []
  startIndicesBatchingDims := []
  startIndexMap := [0]
  indexVectorDim := 1
  sliceSizes := ![1, 256]
  wf := gather_S512x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf
def scatter_S10000_S131072x1_S131072_n_0_0_1 : ScatterDims S10000 S131072x1 S131072 where
  updateWindowDims := []
  insertedWindowDims := [0]
  scatterDimsToOperandDims := [0]
  indexVectorDim := 1
  wf := scatter_S10000_S131072x1_S131072_n_0_0_1_wf

abbrev win0_0 : Pipeline.Window sig grid0 :=
  Pipeline.Window.ofSpec (Memref.whole main_arg0) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S3000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S3000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S30000x256 : Shape := ⟨2, ![30000, 256]⟩
abbrev S512x256 : Shape := ⟨2, ![512, 256]⟩
abbrev S10000x256 : Shape := ⟨2, ![10000, 256]⟩
abbrev S262144 : Shape := ⟨1, ![262144]⟩
abbrev S131072 : Shape := ⟨1, ![131072]⟩
abbrev S256x256 : Shape := ⟨2, ![256, 256]⟩
abbrev S256 : Shape := ⟨1, ![256]⟩
abbrev S1x256 : Shape := ⟨2, ![1, 256]⟩
abbrev S_ : Shape := ⟨0, ![]⟩
abbrev S262144x1 : Shape := ⟨2, ![262144, 1]⟩
abbrev S262144x256 : Shape := ⟨2, ![262144, 256]⟩
abbrev S512 : Shape := ⟨1, ![512]⟩
abbrev S512x1 : Shape := ⟨2, ![512, 1]⟩
abbrev S10000 : Shape := ⟨1, ![10000]⟩
abbrev S10000x1 : Shape := ⟨2, ![10000, 1]⟩
abbrev S131072x1 : Shape := ⟨2, ![131072, 1]⟩
abbrev S131072x256 : Shape := ⟨2, ![131072, 256]⟩

abbrev nBuf : Space → Nat
  | .hbm => 121
  | .vmem => 0
  | .smem => 0
  | _ => 0

abbrev bufTy : (tb : Table) → Fin (tcTables nBuf tb) → BufTy
  | .hbm, ⟨0, _⟩ => ⟨S30000x256, .f32⟩
  | .hbm, ⟨1, _⟩ => ⟨S512x256, .f32⟩
  | .hbm, ⟨2, _⟩ => ⟨S10000x256, .f32⟩
  | .hbm, ⟨3, _⟩ => ⟨S262144, .i32⟩
  | .hbm, ⟨4, _⟩ => ⟨S262144, .i32⟩
  | .hbm, ⟨5, _⟩ => ⟨S262144, .i32⟩
  | .hbm, ⟨6, _⟩ => ⟨S262144, .i32⟩
  | .hbm, ⟨7, _⟩ => ⟨S131072, .i32⟩
  | .hbm, ⟨8, _⟩ => ⟨S131072, .i32⟩
  | .hbm, ⟨9, _⟩ => ⟨S262144, .f32⟩
  | .hbm, ⟨10, _⟩ => ⟨S262144, .f32⟩
  | .hbm, ⟨11, _⟩ => ⟨S131072, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S30000x256, .f32⟩
  | .hbm, ⟨20, _⟩ => ⟨S1x256, .f32⟩
  | .hbm, ⟨21, _⟩ => ⟨S30000x256, .f32⟩
  | .hbm, ⟨22, _⟩ => ⟨S30000x256, .f32⟩
  | .hbm, ⟨23, _⟩ => ⟨S256x256, .f32⟩
  | .hbm, ⟨24, _⟩ => ⟨S30000x256, .f32⟩
  | .hbm, ⟨25, _⟩ => ⟨S1x256, .f32⟩
  | .hbm, ⟨26, _⟩ => ⟨S30000x256, .f32⟩
  | .hbm, ⟨27, _⟩ => ⟨S30000x256, .f32⟩
  | .hbm, ⟨28, _⟩ => ⟨S256x256, .f32⟩
  | .hbm, ⟨29, _⟩ => ⟨S512x256, .f32⟩
  | .hbm, ⟨30, _⟩ => ⟨S1x256, .f32⟩
  | .hbm, ⟨31, _⟩ => ⟨S512x256, .f32⟩
  | .hbm, ⟨32, _⟩ => ⟨S512x256, .f32⟩
  | .hbm, ⟨33, _⟩ => ⟨S_, .i32⟩
  | .hbm, ⟨34, _⟩ => ⟨S262144, .i32⟩
  | .hbm, ⟨35, _⟩ => ⟨S262144, .i1⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S262144x1, .i32⟩
  | .hbm, ⟨41, _⟩ => ⟨S262144x256, .f32⟩
  | .hbm, ⟨42, _⟩ => ⟨S262144x1, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S512x256, .f32⟩
  | .hbm, ⟨47, _⟩ => ⟨S262144x1, .i32⟩
  | .hbm, ⟨48, _⟩ => ⟨S512x256, .f32⟩
  | .hbm, ⟨49, _⟩ => ⟨S_, .f32⟩
  | .hbm, ⟨50, _⟩ => ⟨S262144, .f32⟩
  | .hbm, ⟨51, _⟩ => ⟨S_, .f32⟩
  | .hbm, ⟨52, _⟩ => ⟨S512, .f32⟩
  | .hbm, ⟨53, _⟩ => ⟨S262144x1, .i32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512x1, .f32⟩
  | .hbm, ⟨59, _⟩ => ⟨S512x256, .f32⟩
  | .hbm, ⟨60, _⟩ => ⟨S512x256, .f32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S262144x256, .f32⟩
  | .hbm, ⟨70, _⟩ => ⟨S262144x1, .f32⟩
  | .hbm, ⟨71, _⟩ => ⟨S262144x256, .f32⟩
  | .hbm, ⟨72, _⟩ => ⟨S262144x256, .f32⟩
  | .hbm, ⟨73, _⟩ => ⟨S_, .f32⟩
  | .hbm, ⟨74, _⟩ => ⟨S10000x256, .f32⟩
  | .hbm, ⟨75, _⟩ => ⟨S262144x1, .i32⟩
  | .hbm, ⟨76, _⟩ => ⟨S10000x256, .f32⟩
  | .hbm, ⟨77, _⟩ => ⟨S_, .f32⟩
  | .hbm, ⟨78, _⟩ => ⟨S262144, .f32⟩
  | .hbm, ⟨79, _⟩ => ⟨S_, .f32⟩
  | .hbm, ⟨80, _⟩ => ⟨S10000, .f32⟩
  | .hbm, ⟨81, _⟩ => ⟨S262144x1, .i32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x256, .f32⟩
  | .hbm, ⟨88, _⟩ => ⟨S10000x256, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x256, .f32⟩
  | .hbm, ⟨98, _⟩ => ⟨S131072x1, .f32⟩
  | .hbm, ⟨99, _⟩ => ⟨S131072x256, .f32⟩
  | .hbm, ⟨100, _⟩ => ⟨S131072x256, .f32⟩
  | .hbm, ⟨101, _⟩ => ⟨S_, .f32⟩
  | .hbm, ⟨102, _⟩ => ⟨S10000x256, .f32⟩
  | .hbm, ⟨103, _⟩ => ⟨S131072x1, .i32⟩
  | .hbm, ⟨104, _⟩ => ⟨S10000x256, .f32⟩
  | .hbm, ⟨105, _⟩ => ⟨S_, .f32⟩
  | .hbm, ⟨106, _⟩ => ⟨S131072, .f32⟩
  | .hbm, ⟨107, _⟩ => ⟨S_, .f32⟩
  | .hbm, ⟨108, _⟩ => ⟨S10000, .f32⟩
  | .hbm, ⟨109, _⟩ => ⟨S131072x1, .i32⟩
  | .hbm, ⟨110, _⟩ => ⟨S10000, .f32⟩
  | .hbm, ⟨111, _⟩ => ⟨S_, .f32⟩
  | .hbm, ⟨112, _⟩ => ⟨S10000, .f32⟩
  | .hbm, ⟨113, _⟩ => ⟨S10000, .f32⟩
  | .hbm, ⟨114, _⟩ => ⟨S10000x1, .f32⟩
  | .hbm, ⟨115, _⟩ => ⟨S10000x256, .f32⟩
  | .hbm, ⟨116, _⟩ => ⟨S10000x256, .f32⟩
  | .hbm, ⟨117, _⟩ => ⟨S10000x256, .f32⟩
  | .hbm, ⟨118, _⟩ => ⟨S_, .f32⟩
  | .hbm, ⟨119, _⟩ => ⟨S10000x256, .f32⟩
  | .hbm, ⟨120, _⟩ => ⟨S10000x256, .f32⟩
  | _, _ => ⟨S30000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call0_cst : Ref sig .tc := ⟨.hbm, 118, rfl⟩
abbrev main_call0_v0 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S1x256_S512x256_0_1 : S1x256.BroadcastsInDim S512x256 (![0, 1] : Fin 2 → Fin S512x256.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x256_0_1 : S131072x1.BroadcastsInDim S131072x256 (![0, 1] : Fin 2 → Fin S131072x256.rank)
  dot_S30000x256_S256x256_S30000x256_1_0_0_1_n_n_wf : DotDims.WF S30000x256 S256x256 S30000x256 [1] [0] [0] [1] [] []
  dot_S512x256_S256x256_S512x256_1_0_0_1_n_n_wf : DotDims.WF S512x256 S256x256 S512x256 [1] [0] [0] [1] [] []
  gather_S30000x256_S262144x1_S262144x256_1_0_n_n_0_1_1256_wf : GatherDims.WF S30000x256 S262144x1 S262144x256 [1] [0] [] [0] [] 1 ![1, 256]
  scatter_S512x256_S262144x1_S262144x256_1_0_0_1_wf : ScatterDims.WF S512x256 S262144x1 S262144x256 [1] [0] [0] 1
  scatter_S512_S262144x1_S262144_n_0_0_1_wf : ScatterDims.WF S512 S262144x1 S262144 [] [0] [0] 1
  scatter_S10000x256_S262144x1_S262144x256_1_0_0_1_wf : ScatterDims.WF S10000x256 S262144x1 S262144x256 [1] [0] [0] 1
  scatter_S10000_S262144x1_S262144_n_0_0_1_wf : ScatterDims.WF S10000 S262144x1 S262144 [] [0] [0] 1
  gather_S512x256_S131072x1_S131072x256_1_0_n_n_0_1_1256_wf : GatherDims.WF S512x256 S131072x1 S131072x256 [1] [0] [] [0] [] 1 ![1, 256]
  scatter_S10000x256_S131072x1_S131072x256_1_0_0_1_wf : ScatterDims.WF S10000x256 S131072x1 S131072x256 [1] [0] [0] 1
  scatter_S10000_S131072x1_S131072_n_0_0_1_wf : ScatterDims.WF S10000 S131072x1 S131072 [] [0] [0] 1

variable [Facts₀]

def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S30000x256_S262144x1_S262144x256_1_0_n_n_0_1_1256 : GatherDims S30000x256 S262144x1 S262144x256 where
  offsetDims := [1]
  collapsedSliceDims := [0]
  operandBatchingDims := []
  startIndicesBatchingDims := []
  startIndexMap := [0]
  indexVectorDim := 1
  sliceSizes := ![1, 256]
  wf := gather_S30000x256_S262144x1_S262144x256_1_0_n_n_0_1_1256_wf
def scatter_S512x256_S262144x1_S262144x256_1_0_0_1 : ScatterDims S512x256 S262144x1 S262144x256 where
  updateWindowDims := [1]
  insertedWindowDims := [0]
  scatterDimsToOperandDims := [0]
  indexVectorDim := 1
  wf := scatter_S512x256_S262144x1_S262144x256_1_0_0_1_wf
def scatter_S512_S262144x1_S262144_n_0_0_1 : ScatterDims S512 S262144x1 S262144 where
  updateWindowDims := []
  insertedWindowDims := [0]
  scatterDimsToOperandDims := [0]
  indexVectorDim := 1
  wf := scatter_S512_S262144x1_S262144_n_0_0_1_wf
def scatter_S10000x256_S262144x1_S262144x256_1_0_0_1 : ScatterDims S10000x256 S262144x1 S262144x256 where
  updateWindowDims := [1]
  insertedWindowDims := [0]
  scatterDimsToOperandDims := [0]
  indexVectorDim := 1
  wf := scatter_S10000x256_S262144x1_S262144x256_1_0_0_1_wf
def scatter_S10000_S262144x1_S262144_n_0_0_1 : ScatterDims S10000 S262144x1 S262144 where
  updateWindowDims := []
  insertedWindowDims := [0]
  scatterDimsToOperandDims := [0]
  indexVectorDim := 1
  wf := scatter_S10000_S262144x1_S262144_n_0_0_1_wf
def gather_S512x256_S131072x1_S131072x256_1_0_n_n_0_1_1256 : GatherDims S512x256 S131072x1 S131072x256 where
  offsetDims := [1]
  collapsedSliceDims := [0]
  operandBatchingDims := []
  startIndicesBatchingDims := []
  startIndexMap := [0]
  indexVectorDim := 1
  sliceSizes := ![1, 256]
  wf := gather_S512x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf
def scatter_S10000_S131072x1_S131072_n_0_0_1 : ScatterDims S10000 S131072x1 S131072 where
  updateWindowDims := []
  insertedWindowDims := [0]
  scatterDimsToOperandDims := [0]
  indexVectorDim := 1
  wf := scatter_S10000_S131072x1_S131072_n_0_0_1_wf

class Facts : Prop extends Facts₀ where

variable [Facts]
-- ==== Proof.FrameDefsK.lean ====
/-
  The proof data of `Kernel`'s one pallas_call (a fused pair of linear layers over row blocks of the word features):
  the arrays as the region finds them, each window's block at a grid point, and what the body leaves in its two
  output staging buffers — the product of the point's 3000 rows with the transposed weight matrix plus the bias
  row, once per relation. Stated at any float instance.
-/
import proofs.«156106_j14087492731175_2_alg».proof.Proof.Gen.Kernel.Launch
import proofs.«156106_j14087492731175_2_alg».proof.Proof.Gen.Kernel.Skeleton
import proofs.«156106_j14087492731175_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch memory after the two reshapes of the bias
    vectors into rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the weight and
    bias windows are fetched once: their block index never moves), for any proof data whose array is the
    region-entry one and whose body leaves the block in place. One statement per window: the block's shape is a
    literal only at a literal window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S3000x256 := Rect.unit (s := S3000x256) ![0, 0] S3000x256.size inb_S3000x256_S3000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in each output window's buffer -/

/-- The first output's staging buffer after the body: its one whole-block store, of the first relation's linear
    layer of the point's rows. -/
def outA (x0 : Vec F S3000x256 .f32) (x1 : Vec F S256x256 .f32) (x2 : Vec F S1x256 .f32) : Vec F S3000x256 .bf16 :=
  View.canon [⟨rX, k0_pay2 (View.ld x0 rX) (View.ld x1 rW) (View.ld x2 rB)⟩]

/-- The second output's, of the second relation's. -/
def outB (x0 : Vec F S3000x256 .f32) (x3 : Vec F S256x256 .f32) (x4 : Vec F S1x256 .f32) : Vec F S3000x256 .bf16 :=
  View.canon [⟨rX, k0_pay3 (View.ld x0 rX) (View.ld x3 rW) (View.ld x4 rB)⟩]

/-- A whole-block store covers the buffer. -/
theorem cover_out (p0 : Vec F S3000x256 .bf16) (y : S3000x256.Idx) :
    ∃ pc ∈ ([⟨rX, p0⟩] : List (View.Piece (Elt F) S3000x256 .bf16)), y ∈ pc.1.set :=
  View.cover_of_tiled [⟨rX, p0⟩] S3000x256.size (by rfl) y

/-! ## The pipeline's proof data -/

/-- The proof data of the one pipeline on core `c`: the arrays as the region finds them; after the body at point `t`
    each input's buffer at its block and each output's at the linear layer of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA (iblk m c 0 t) (iblk m c 1 t) (iblk m c 2 t)
    | ⟨6, _⟩ => outB (iblk m c 0 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outA (iblk m c 0 t) (iblk m c 1 t) (iblk m c 2 t) := by dsimp only [dats]
theorem after6 (c : Dev nD) (t : Fin cfg0.N) :
    (dats m 0 c).after 6 t = outB (iblk m c 0 t) (iblk m c 3 t) (iblk m c 4 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.Kernel.Fr

end
-- ==== Proof.FrameBodyK.lean ====
/-
  The body obligation of `Kernel`'s pallas_call: run on whole staging buffers — the five inputs at read contents, the
  two outputs at anything — the body loads the row block, both weight matrices and both bias rows, loads (and
  ignores) the two output buffers, and stores one whole block into each output: the linear layer of the loaded
  values. Each input is left as it was. At a grid point the inputs hold their blocks, so the triple applies there.
-/
import proofs.«156106_j14087492731175_2_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at read contents and the outputs' at anything, runs to the
    continuation holding the inputs' as they were and each output's at the linear layer of the inputs'. -/
theorem sound_kernel (c : Dev nD) (E : Set ℕ) (i : grid0.Coords) (arg1 : Memref sig .tc .vmem S3000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S3000x256 .bf16) (harg6 : arg6.IsWhole) (arg7 : Memref sig .tc .vmem S3000x256 .bf16) (harg7 : arg7.IsWhole)
    (x0 : Vec F S3000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outA x0 x1 x2) ∗ owns (c : Thread nD τ) arg7 fullShare (outB x0 x3 x4)) -∗ K ⟨⟩))
      ⊢ wp frame (wpE (defs₀ (F := F)) Variants.none c none) E (cc0__linear2_kernel i arg1 harg1 arg2 harg2 arg3 harg3 arg4 harg4 arg5 harg5 arg6 harg6 arg7 harg7) K := by
  simp only [cc0__linear2_kernel_eq_skeleton]; unfold cc0__linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_out _)
  iexists _; isplitr
  swap; · iexact H6
  ipureintro
  exact View.read_writes_eq_canon _ _ _ (cover_out _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrameHostK.lean ====
/-
  The host side of `Kernel`'s frame: @main is two reshapes, the region, and 97 later host operations (the
  small third linear layer, the three edge-weighted gather / scatter-mean aggregations and the final relu). The
  later operations allocate nothing, touch only unscoped buffers, and each writes only its own result buffer:
  none writes an argument array or an array a window of the region stands on. So every argument ends as launched.
-/
import proofs.«156106_j14087492731175_2_alg».proof.Proof.FrameDefsK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host stretches allocate nothing -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## @main around the region -/

set_option maxHeartbeats 4000000 in
/-- @main is the two reshapes, the region, and then the later host operations: it reduces to the region continued by
    those. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The later operations touch the pipeline's arrays and the bypassing buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-! ## No host operation writes an argument or a window's array

Every host operation writes exactly its own result buffer; the result buffers are the intermediates `main_v3` …
`main_v79`, the constants, and the relu call's own, none of which is an argument or a window's array. One fact per
stretch and buffer, each by comparing the buffer with every result buffer of the stretch. -/

/-- `b` is written by no operation of the list: compared with each operation's one result buffer. -/
macro "not_written" : tactic => `(tactic| (
  refine List.forall_iff_forall_mem.mp ?_
  simp only [hostOps0, hostOps1, hostOps1_1, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem nw0_main_arg0 : ∀ op ∈ (hostOps0 : List (HloOp τ sig (Elt F))), Proc.devRef .tc main_arg0 ∉ op.writes := by not_written
theorem nw0_main_arg1 : ∀ op ∈ (hostOps0 : List (HloOp τ sig (Elt F))), Proc.devRef .tc main_arg1 ∉ op.writes := by not_written
theorem nw0_main_arg2 : ∀ op ∈ (hostOps0 : List (HloOp τ sig (Elt F))), Proc.devRef .tc main_arg2 ∉ op.writes := by not_written
theorem nw0_main_arg3 : ∀ op ∈ (hostOps0 : List (HloOp τ sig (Elt F))), Proc.devRef .tc main_arg3 ∉ op.writes := by not_written
theorem nw0_main_arg4 : ∀ op ∈ (hostOps0 : List (HloOp τ sig (Elt F))), Proc.devRef .tc main_arg4 ∉ op.writes := by not_written
theorem nw0_main_arg5 : ∀ op ∈ (hostOps0 : List (HloOp τ sig (Elt F))), Proc.devRef .tc main_arg5 ∉ op.writes := by not_written
theorem nw0_main_arg6 : ∀ op ∈ (hostOps0 : List (HloOp τ sig (Elt F))), Proc.devRef .tc main_arg6 ∉ op.writes := by not_written
theorem nw0_main_arg7 : ∀ op ∈ (hostOps0 : List (HloOp τ sig (Elt F))), Proc.devRef .tc main_arg7 ∉ op.writes := by not_written
theorem nw0_main_arg8 : ∀ op ∈ (hostOps0 : List (HloOp τ sig (Elt F))), Proc.devRef .tc main_arg8 ∉ op.writes := by not_written
theorem nw0_main_arg9 : ∀ op ∈ (hostOps0 : List (HloOp τ sig (Elt F))), Proc.devRef .tc main_arg9 ∉ op.writes := by not_written
theorem nw0_main_arg10 : ∀ op ∈ (hostOps0 : List (HloOp τ sig (Elt F))), Proc.devRef .tc main_arg10 ∉ op.writes := by not_written
theorem nw0_main_arg11 : ∀ op ∈ (hostOps0 : List (HloOp τ sig (Elt F))), Proc.devRef .tc main_arg11 ∉ op.writes := by not_written
theorem nw0_main_arg12 : ∀ op ∈ (hostOps0 : List (HloOp τ sig (Elt F))), Proc.devRef .tc main_arg12 ∉ op.writes := by not_written
theorem nw0_main_arg13 : ∀ op ∈ (hostOps0 : List (HloOp τ sig (Elt F))), Proc.devRef .tc main_arg13 ∉ op.writes := by not_written
theorem nw0_main_arg14 : ∀ op ∈ (hostOps0 : List (HloOp τ sig (Elt F))), Proc.devRef .tc main_arg14 ∉ op.writes := by not_written
theorem nw0_main_arg15 : ∀ op ∈ (hostOps0 : List (HloOp τ sig (Elt F))), Proc.devRef .tc main_arg15 ∉ op.writes := by not_written
theorem nw0_main_arg16 : ∀ op ∈ (hostOps0 : List (HloOp τ sig (Elt F))), Proc.devRef .tc main_arg16 ∉ op.writes := by not_written
theorem nw0_main_arg17 : ∀ op ∈ (hostOps0 : List (HloOp τ sig (Elt F))), Proc.devRef .tc main_arg17 ∉ op.writes := by not_written

set_option maxHeartbeats 4000000 in
theorem nw1_main_arg0 : ∀ op ∈ (hostOps1 : List (HloOp τ sig (Elt F))), Proc.devRef .tc main_arg0 ∉ op.writes := by not_written
theorem nw2_main_arg0 : ∀ op ∈ (hostOps1_1 : List (HloOp τ sig (Elt F))), Proc.devRef .tc main_arg0 ∉ op.writes := by not_written
set_option maxHeartbeats 4000000 in
theorem nw1_main_arg1 : ∀ op ∈ (hostOps1 : List (HloOp τ sig (Elt F))), Proc.devRef .tc main_arg1 ∉ op.writes := by not_written
theorem nw2_main_arg1 : ∀ op ∈ (hostOps1_1 : List (HloOp τ sig (Elt F))), Proc.devRef .tc main_arg1 ∉ op.writes := by not_written
set_option maxHeartbeats 4000000 in
theorem nw1_main_arg2 : ∀ op ∈ (hostOps1 : List (HloOp τ sig (Elt F))), Proc.devRef .tc main_arg2 ∉ op.writes := by not_written
theorem nw2_main_arg2 : ∀ op ∈ (hostOps1_1 : List (HloOp τ sig (Elt F))), Proc.devRef .tc main_arg2 ∉ op.writes := by not_written
set_option maxHeartbeats 4000000 in
theorem nw1_main_arg3 : ∀ op ∈ (hostOps1 : List (HloOp τ sig (Elt F))), Proc.devRef .tc main_arg3 ∉ op.writes := by not_written
theorem nw2_main_arg3 : ∀ op ∈ (hostOps1_1 : List (HloOp τ sig (Elt F))), Proc.devRef .tc main_arg3 ∉ op.writes := by not_written
set_option maxHeartbeats 4000000 in
theorem nw1_main_arg4 : ∀ op ∈ (hostOps1 : List (HloOp τ sig (Elt F))), Proc.devRef .tc main_arg4 ∉ op.writes := by not_written
theorem nw2_main_arg4 : ∀ op ∈ (hostOps1_1 : List (HloOp τ sig (Elt F))), Proc.devRef .tc main_arg4 ∉ op.writes := by not_written
set_option maxHeartbeats 4000000 in
theorem nw1_main_arg5 : ∀ op ∈ (hostOps1 : List (HloOp τ sig (Elt F))), Proc.devRef .tc main_arg5 ∉ op.writes := by not_written
theorem nw2_main_arg5 : ∀ op ∈ (hostOps1_1 : List (HloOp τ sig (Elt F))), Proc.devRef .tc main_arg5 ∉ op.writes := by not_written
set_option maxHeartbeats 4000000 in
theorem nw1_main_arg6 : ∀ op ∈ (hostOps1 : List (HloOp τ sig (Elt F))), Proc.devRef .tc main_arg6 ∉ op.writes := by not_written
theorem nw2_main_arg6 : ∀ op ∈ (hostOps1_1 : List (HloOp τ sig (Elt F))), Proc.devRef .tc main_arg6 ∉ op.writes := by not_written
set_option maxHeartbeats 4000000 in
theorem nw1_main_arg7 : ∀ op ∈ (hostOps1 : List (HloOp τ sig (Elt F))), Proc.devRef .tc main_arg7 ∉ op.writes := by not_written
theorem nw2_main_arg7 : ∀ op ∈ (hostOps1_1 : List (HloOp τ sig (Elt F))), Proc.devRef .tc main_arg7 ∉ op.writes := by not_written
set_option maxHeartbeats 4000000 in
theorem nw1_main_arg8 : ∀ op ∈ (hostOps1 : List (HloOp τ sig (Elt F))), Proc.devRef .tc main_arg8 ∉ op.writes := by not_written
theorem nw2_main_arg8 : ∀ op ∈ (hostOps1_1 : List (HloOp τ sig (Elt F))), Proc.devRef .tc main_arg8 ∉ op.writes := by not_written
set_option maxHeartbeats 4000000 in
theorem nw1_main_arg9 : ∀ op ∈ (hostOps1 : List (HloOp τ sig (Elt F))), Proc.devRef .tc main_arg9 ∉ op.writes := by not_written
theorem nw2_main_arg9 : ∀ op ∈ (hostOps1_1 : List (HloOp τ sig (Elt F))), Proc.devRef .tc main_arg9 ∉ op.writes := by not_written
set_option maxHeartbeats 4000000 in
theorem nw1_main_arg10 : ∀ op ∈ (hostOps1 : List (HloOp τ sig (Elt F))), Proc.devRef .tc main_arg10 ∉ op.writes := by not_written
theorem nw2_main_arg10 : ∀ op ∈ (hostOps1_1 : List (HloOp τ sig (Elt F))), Proc.devRef .tc main_arg10 ∉ op.writes := by not_written
set_option maxHeartbeats 4000000 in
theorem nw1_main_arg11 : ∀ op ∈ (hostOps1 : List (HloOp τ sig (Elt F))), Proc.devRef .tc main_arg11 ∉ op.writes := by not_written
theorem nw2_main_arg11 : ∀ op ∈ (hostOps1_1 : List (HloOp τ sig (Elt F))), Proc.devRef .tc main_arg11 ∉ op.writes := by not_written
set_option maxHeartbeats 4000000 in
theorem nw1_main_arg12 : ∀ op ∈ (hostOps1 : List (HloOp τ sig (Elt F))), Proc.devRef .tc main_arg12 ∉ op.writes := by not_written
theorem nw2_main_arg12 : ∀ op ∈ (hostOps1_1 : List (HloOp τ sig (Elt F))), Proc.devRef .tc main_arg12 ∉ op.writes := by not_written
set_option maxHeartbeats 4000000 in
theorem nw1_main_arg13 : ∀ op ∈ (hostOps1 : List (HloOp τ sig (Elt F))), Proc.devRef .tc main_arg13 ∉ op.writes := by not_written
theorem nw2_main_arg13 : ∀ op ∈ (hostOps1_1 : List (HloOp τ sig (Elt F))), Proc.devRef .tc main_arg13 ∉ op.writes := by not_written
set_option maxHeartbeats 4000000 in
theorem nw1_main_arg14 : ∀ op ∈ (hostOps1 : List (HloOp τ sig (Elt F))), Proc.devRef .tc main_arg14 ∉ op.writes := by not_written
theorem nw2_main_arg14 : ∀ op ∈ (hostOps1_1 : List (HloOp τ sig (Elt F))), Proc.devRef .tc main_arg14 ∉ op.writes := by not_written
set_option maxHeartbeats 4000000 in
theorem nw1_main_arg15 : ∀ op ∈ (hostOps1 : List (HloOp τ sig (Elt F))), Proc.devRef .tc main_arg15 ∉ op.writes := by not_written
theorem nw2_main_arg15 : ∀ op ∈ (hostOps1_1 : List (HloOp τ sig (Elt F))), Proc.devRef .tc main_arg15 ∉ op.writes := by not_written
set_option maxHeartbeats 4000000 in
theorem nw1_main_arg16 : ∀ op ∈ (hostOps1 : List (HloOp τ sig (Elt F))), Proc.devRef .tc main_arg16 ∉ op.writes := by not_written
theorem nw2_main_arg16 : ∀ op ∈ (hostOps1_1 : List (HloOp τ sig (Elt F))), Proc.devRef .tc main_arg16 ∉ op.writes := by not_written
set_option maxHeartbeats 4000000 in
theorem nw1_main_arg17 : ∀ op ∈ (hostOps1 : List (HloOp τ sig (Elt F))), Proc.devRef .tc main_arg17 ∉ op.writes := by not_written
theorem nw2_main_arg17 : ∀ op ∈ (hostOps1_1 : List (HloOp τ sig (Elt F))), Proc.devRef .tc main_arg17 ∉ op.writes := by not_written
set_option maxHeartbeats 4000000 in
theorem nw1_main_v0 : ∀ op ∈ (hostOps1 : List (HloOp τ sig (Elt F))), Proc.devRef .tc main_v0 ∉ op.writes := by not_written
theorem nw2_main_v0 : ∀ op ∈ (hostOps1_1 : List (HloOp τ sig (Elt F))), Proc.devRef .tc main_v0 ∉ op.writes := by not_written
set_option maxHeartbeats 4000000 in
theorem nw1_main_v1 : ∀ op ∈ (hostOps1 : List (HloOp τ sig (Elt F))), Proc.devRef .tc main_v1 ∉ op.writes := by not_written
theorem nw2_main_v1 : ∀ op ∈ (hostOps1_1 : List (HloOp τ sig (Elt F))), Proc.devRef .tc main_v1 ∉ op.writes := by not_written
set_option maxHeartbeats 4000000 in
theorem nw1_main_v2_0 : ∀ op ∈ (hostOps1 : List (HloOp τ sig (Elt F))), Proc.devRef .tc main_v2_0 ∉ op.writes := by not_written
theorem nw2_main_v2_0 : ∀ op ∈ (hostOps1_1 : List (HloOp τ sig (Elt F))), Proc.devRef .tc main_v2_0 ∉ op.writes := by not_written
set_option maxHeartbeats 4000000 in
theorem nw1_main_v2_1 : ∀ op ∈ (hostOps1 : List (HloOp τ sig (Elt F))), Proc.devRef .tc main_v2_1 ∉ op.writes := by not_written
theorem nw2_main_v2_1 : ∀ op ∈ (hostOps1_1 : List (HloOp τ sig (Elt F))), Proc.devRef .tc main_v2_1 ∉ op.writes := by not_written

/-- No later operation writes an array a window stands on. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · fin_cases w
    · exact nw1_main_arg0 op hop
    · exact nw1_main_arg12 op hop
    · exact nw1_main_v0 op hop
    · exact nw1_main_arg14 op hop
    · exact nw1_main_v1 op hop
    · exact nw1_main_v2_0 op hop
    · exact nw1_main_v2_1 op hop
  · fin_cases w
    · exact nw2_main_arg0 op hop
    · exact nw2_main_arg12 op hop
    · exact nw2_main_v0 op hop
    · exact nw2_main_arg14 op hop
    · exact nw2_main_v1 op hop
    · exact nw2_main_v2_0 op hop
    · exact nw2_main_v2_1 op hop

/-! ## Each argument as the region finds it, and as @main leaves it -/

/-- The reshapes before the region do not write `main_arg0`: the region finds it as launched. -/
theorem V_main_arg0 (c : Dev nD) : V m c main_arg0 = m ((c : Thread nD τ).loc main_arg0) :=
  StableHlo.after_of_forall_not_mem (b := Proc.devRef .tc main_arg0) _ _ (by
    simp only [List.flatten_cons, List.flatten_nil, List.append_nil]; exact nw0_main_arg0)
/-- The reshapes before the region do not write `main_arg1`: the region finds it as launched. -/
theorem V_main_arg1 (c : Dev nD) : V m c main_arg1 = m ((c : Thread nD τ).loc main_arg1) :=
  StableHlo.after_of_forall_not_mem (b := Proc.devRef .tc main_arg1) _ _ (by
    simp only [List.flatten_cons, List.flatten_nil, List.append_nil]; exact nw0_main_arg1)
/-- The reshapes before the region do not write `main_arg2`: the region finds it as launched. -/
theorem V_main_arg2 (c : Dev nD) : V m c main_arg2 = m ((c : Thread nD τ).loc main_arg2) :=
  StableHlo.after_of_forall_not_mem (b := Proc.devRef .tc main_arg2) _ _ (by
    simp only [List.flatten_cons, List.flatten_nil, List.append_nil]; exact nw0_main_arg2)
/-- The reshapes before the region do not write `main_arg3`: the region finds it as launched. -/
theorem V_main_arg3 (c : Dev nD) : V m c main_arg3 = m ((c : Thread nD τ).loc main_arg3) :=
  StableHlo.after_of_forall_not_mem (b := Proc.devRef .tc main_arg3) _ _ (by
    simp only [List.flatten_cons, List.flatten_nil, List.append_nil]; exact nw0_main_arg3)
/-- The reshapes before the region do not write `main_arg4`: the region finds it as launched. -/
theorem V_main_arg4 (c : Dev nD) : V m c main_arg4 = m ((c : Thread nD τ).loc main_arg4) :=
  StableHlo.after_of_forall_not_mem (b := Proc.devRef .tc main_arg4) _ _ (by
    simp only [List.flatten_cons, List.flatten_nil, List.append_nil]; exact nw0_main_arg4)
/-- The reshapes before the region do not write `main_arg5`: the region finds it as launched. -/
theorem V_main_arg5 (c : Dev nD) : V m c main_arg5 = m ((c : Thread nD τ).loc main_arg5) :=
  StableHlo.after_of_forall_not_mem (b := Proc.devRef .tc main_arg5) _ _ (by
    simp only [List.flatten_cons, List.flatten_nil, List.append_nil]; exact nw0_main_arg5)
/-- The reshapes before the region do not write `main_arg6`: the region finds it as launched. -/
theorem V_main_arg6 (c : Dev nD) : V m c main_arg6 = m ((c : Thread nD τ).loc main_arg6) :=
  StableHlo.after_of_forall_not_mem (b := Proc.devRef .tc main_arg6) _ _ (by
    simp only [List.flatten_cons, List.flatten_nil, List.append_nil]; exact nw0_main_arg6)
/-- The reshapes before the region do not write `main_arg7`: the region finds it as launched. -/
theorem V_main_arg7 (c : Dev nD) : V m c main_arg7 = m ((c : Thread nD τ).loc main_arg7) :=
  StableHlo.after_of_forall_not_mem (b := Proc.devRef .tc main_arg7) _ _ (by
    simp only [List.flatten_cons, List.flatten_nil, List.append_nil]; exact nw0_main_arg7)
/-- The reshapes before the region do not write `main_arg8`: the region finds it as launched. -/
theorem V_main_arg8 (c : Dev nD) : V m c main_arg8 = m ((c : Thread nD τ).loc main_arg8) :=
  StableHlo.after_of_forall_not_mem (b := Proc.devRef .tc main_arg8) _ _ (by
    simp only [List.flatten_cons, List.flatten_nil, List.append_nil]; exact nw0_main_arg8)
/-- The reshapes before the region do not write `main_arg9`: the region finds it as launched. -/
theorem V_main_arg9 (c : Dev nD) : V m c main_arg9 = m ((c : Thread nD τ).loc main_arg9) :=
  StableHlo.after_of_forall_not_mem (b := Proc.devRef .tc main_arg9) _ _ (by
    simp only [List.flatten_cons, List.flatten_nil, List.append_nil]; exact nw0_main_arg9)
/-- The reshapes before the region do not write `main_arg10`: the region finds it as launched. -/
theorem V_main_arg10 (c : Dev nD) : V m c main_arg10 = m ((c : Thread nD τ).loc main_arg10) :=
  StableHlo.after_of_forall_not_mem (b := Proc.devRef .tc main_arg10) _ _ (by
    simp only [List.flatten_cons, List.flatten_nil, List.append_nil]; exact nw0_main_arg10)
/-- The reshapes before the region do not write `main_arg11`: the region finds it as launched. -/
theorem V_main_arg11 (c : Dev nD) : V m c main_arg11 = m ((c : Thread nD τ).loc main_arg11) :=
  StableHlo.after_of_forall_not_mem (b := Proc.devRef .tc main_arg11) _ _ (by
    simp only [List.flatten_cons, List.flatten_nil, List.append_nil]; exact nw0_main_arg11)
/-- The reshapes before the region do not write `main_arg12`: the region finds it as launched. -/
theorem V_main_arg12 (c : Dev nD) : V m c main_arg12 = m ((c : Thread nD τ).loc main_arg12) :=
  StableHlo.after_of_forall_not_mem (b := Proc.devRef .tc main_arg12) _ _ (by
    simp only [List.flatten_cons, List.flatten_nil, List.append_nil]; exact nw0_main_arg12)
/-- The reshapes before the region do not write `main_arg13`: the region finds it as launched. -/
theorem V_main_arg13 (c : Dev nD) : V m c main_arg13 = m ((c : Thread nD τ).loc main_arg13) :=
  StableHlo.after_of_forall_not_mem (b := Proc.devRef .tc main_arg13) _ _ (by
    simp only [List.flatten_cons, List.flatten_nil, List.append_nil]; exact nw0_main_arg13)
/-- The reshapes before the region do not write `main_arg14`: the region finds it as launched. -/
theorem V_main_arg14 (c : Dev nD) : V m c main_arg14 = m ((c : Thread nD τ).loc main_arg14) :=
  StableHlo.after_of_forall_not_mem (b := Proc.devRef .tc main_arg14) _ _ (by
    simp only [List.flatten_cons, List.flatten_nil, List.append_nil]; exact nw0_main_arg14)
/-- The reshapes before the region do not write `main_arg15`: the region finds it as launched. -/
theorem V_main_arg15 (c : Dev nD) : V m c main_arg15 = m ((c : Thread nD τ).loc main_arg15) :=
  StableHlo.after_of_forall_not_mem (b := Proc.devRef .tc main_arg15) _ _ (by
    simp only [List.flatten_cons, List.flatten_nil, List.append_nil]; exact nw0_main_arg15)
/-- The reshapes before the region do not write `main_arg16`: the region finds it as launched. -/
theorem V_main_arg16 (c : Dev nD) : V m c main_arg16 = m ((c : Thread nD τ).loc main_arg16) :=
  StableHlo.after_of_forall_not_mem (b := Proc.devRef .tc main_arg16) _ _ (by
    simp only [List.flatten_cons, List.flatten_nil, List.append_nil]; exact nw0_main_arg16)
/-- The reshapes before the region do not write `main_arg17`: the region finds it as launched. -/
theorem V_main_arg17 (c : Dev nD) : V m c main_arg17 = m ((c : Thread nD τ).loc main_arg17) :=
  StableHlo.after_of_forall_not_mem (b := Proc.devRef .tc main_arg17) _ _ (by
    simp only [List.flatten_cons, List.flatten_nil, List.append_nil]; exact nw0_main_arg17)

/-- No later operation writes `main_arg1`, and no window stands on it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (by
      intro op hop
      simp only [List.flatten_cons, List.flatten_nil, List.append_nil, List.mem_append] at hop
      rcases hop with h | h
      · exact nw1_main_arg1 op h
      · exact nw2_main_arg1 op h),
    Pipeline.withArrays_of_ne _ c (V0 m c) _ main_arg1 (by exact (by decide : ∀ w, Pipeline.arrRef spec0 w ≠ main_arg1))]
  exact V_main_arg1 m c
/-- No later operation writes `main_arg2`, and no window stands on it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (by
      intro op hop
      simp only [List.flatten_cons, List.flatten_nil, List.append_nil, List.mem_append] at hop
      rcases hop with h | h
      · exact nw1_main_arg2 op h
      · exact nw2_main_arg2 op h),
    Pipeline.withArrays_of_ne _ c (V0 m c) _ main_arg2 (by exact (by decide : ∀ w, Pipeline.arrRef spec0 w ≠ main_arg2))]
  exact V_main_arg2 m c
/-- No later operation writes `main_arg3`, and no window stands on it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (by
      intro op hop
      simp only [List.flatten_cons, List.flatten_nil, List.append_nil, List.mem_append] at hop
      rcases hop with h | h
      · exact nw1_main_arg3 op h
      · exact nw2_main_arg3 op h),
    Pipeline.withArrays_of_ne _ c (V0 m c) _ main_arg3 (by exact (by decide : ∀ w, Pipeline.arrRef spec0 w ≠ main_arg3))]
  exact V_main_arg3 m c
/-- No later operation writes `main_arg4`, and no window stands on it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (by
      intro op hop
      simp only [List.flatten_cons, List.flatten_nil, List.append_nil, List.mem_append] at hop
      rcases hop with h | h
      · exact nw1_main_arg4 op h
      · exact nw2_main_arg4 op h),
    Pipeline.withArrays_of_ne _ c (V0 m c) _ main_arg4 (by exact (by decide : ∀ w, Pipeline.arrRef spec0 w ≠ main_arg4))]
  exact V_main_arg4 m c
/-- No later operation writes `main_arg5`, and no window stands on it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (by
      intro op hop
      simp only [List.flatten_cons, List.flatten_nil, List.append_nil, List.mem_append] at hop
      rcases hop with h | h
      · exact nw1_main_arg5 op h
      · exact nw2_main_arg5 op h),
    Pipeline.withArrays_of_ne _ c (V0 m c) _ main_arg5 (by exact (by decide : ∀ w, Pipeline.arrRef spec0 w ≠ main_arg5))]
  exact V_main_arg5 m c
/-- No later operation writes `main_arg6`, and no window stands on it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (by
      intro op hop
      simp only [List.flatten_cons, List.flatten_nil, List.append_nil, List.mem_append] at hop
      rcases hop with h | h
      · exact nw1_main_arg6 op h
      · exact nw2_main_arg6 op h),
    Pipeline.withArrays_of_ne _ c (V0 m c) _ main_arg6 (by exact (by decide : ∀ w, Pipeline.arrRef spec0 w ≠ main_arg6))]
  exact V_main_arg6 m c
/-- No later operation writes `main_arg7`, and no window stands on it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (by
      intro op hop
      simp only [List.flatten_cons, List.flatten_nil, List.append_nil, List.mem_append] at hop
      rcases hop with h | h
      · exact nw1_main_arg7 op h
      · exact nw2_main_arg7 op h),
    Pipeline.withArrays_of_ne _ c (V0 m c) _ main_arg7 (by exact (by decide : ∀ w, Pipeline.arrRef spec0 w ≠ main_arg7))]
  exact V_main_arg7 m c
/-- No later operation writes `main_arg8`, and no window stands on it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg8 = m ((c : Thread nD τ).loc main_arg8) := by
  unfold Pipeline.afterTail₀
  rw [StableHlo.after_of_forall_not_mem (b := Proc.devRef .tc main_arg8) _ _ (by
      intro op hop
      simp only [List.flatten_cons, List.flatten_nil, List.append_nil, List.mem_append] at hop
      rcases hop with h | h
      · exact nw1_main_arg8 op h
      · exact nw2_main_arg8 op h),
    Pipeline.withArrays_of_ne _ c (V0 m c) _ main_arg8 (by exact (by decide : ∀ w, Pipeline.arrRef spec0 w ≠ main_arg8))]
  exact V_main_arg8 m c
/-- No later operation writes `main_arg9`, and no window stands on it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg9 = m ((c : Thread nD τ).loc main_arg9) := by
  unfold Pipeline.afterTail₀
  rw [StableHlo.after_of_forall_not_mem (b := Proc.devRef .tc main_arg9) _ _ (by
      intro op hop
      simp only [List.flatten_cons, List.flatten_nil, List.append_nil, List.mem_append] at hop
      rcases hop with h | h
      · exact nw1_main_arg9 op h
      · exact nw2_main_arg9 op h),
    Pipeline.withArrays_of_ne _ c (V0 m c) _ main_arg9 (by exact (by decide : ∀ w, Pipeline.arrRef spec0 w ≠ main_arg9))]
  exact V_main_arg9 m c
/-- No later operation writes `main_arg10`, and no window stands on it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg10 = m ((c : Thread nD τ).loc main_arg10) := by
  unfold Pipeline.afterTail₀
  rw [StableHlo.after_of_forall_not_mem (b := Proc.devRef .tc main_arg10) _ _ (by
      intro op hop
      simp only [List.flatten_cons, List.flatten_nil, List.append_nil, List.mem_append] at hop
      rcases hop with h | h
      · exact nw1_main_arg10 op h
      · exact nw2_main_arg10 op h),
    Pipeline.withArrays_of_ne _ c (V0 m c) _ main_arg10 (by exact (by decide : ∀ w, Pipeline.arrRef spec0 w ≠ main_arg10))]
  exact V_main_arg10 m c
/-- No later operation writes `main_arg11`, and no window stands on it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg11 = m ((c : Thread nD τ).loc main_arg11) := by
  unfold Pipeline.afterTail₀
  rw [StableHlo.after_of_forall_not_mem (b := Proc.devRef .tc main_arg11) _ _ (by
      intro op hop
      simp only [List.flatten_cons, List.flatten_nil, List.append_nil, List.mem_append] at hop
      rcases hop with h | h
      · exact nw1_main_arg11 op h
      · exact nw2_main_arg11 op h),
    Pipeline.withArrays_of_ne _ c (V0 m c) _ main_arg11 (by exact (by decide : ∀ w, Pipeline.arrRef spec0 w ≠ main_arg11))]
  exact V_main_arg11 m c
/-- No later operation writes `main_arg13`, and no window stands on it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg13 = m ((c : Thread nD τ).loc main_arg13) := by
  unfold Pipeline.afterTail₀
  rw [StableHlo.after_of_forall_not_mem (b := Proc.devRef .tc main_arg13) _ _ (by
      intro op hop
      simp only [List.flatten_cons, List.flatten_nil, List.append_nil, List.mem_append] at hop
      rcases hop with h | h
      · exact nw1_main_arg13 op h
      · exact nw2_main_arg13 op h),
    Pipeline.withArrays_of_ne _ c (V0 m c) _ main_arg13 (by exact (by decide : ∀ w, Pipeline.arrRef spec0 w ≠ main_arg13))]
  exact V_main_arg13 m c
/-- No later operation writes `main_arg15`, and no window stands on it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg15 = m ((c : Thread nD τ).loc main_arg15) := by
  unfold Pipeline.afterTail₀
  rw [StableHlo.after_of_forall_not_mem (b := Proc.devRef .tc main_arg15) _ _ (by
      intro op hop
      simp only [List.flatten_cons, List.flatten_nil, List.append_nil, List.mem_append] at hop
      rcases hop with h | h
      · exact nw1_main_arg15 op h
      · exact nw2_main_arg15 op h),
    Pipeline.withArrays_of_ne _ c (V0 m c) _ main_arg15 (by exact (by decide : ∀ w, Pipeline.arrRef spec0 w ≠ main_arg15))]
  exact V_main_arg15 m c
/-- No later operation writes `main_arg16`, and no window stands on it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg16 = m ((c : Thread nD τ).loc main_arg16) := by
  unfold Pipeline.afterTail₀
  rw [StableHlo.after_of_forall_not_mem (b := Proc.devRef .tc main_arg16) _ _ (by
      intro op hop
      simp only [List.flatten_cons, List.flatten_nil, List.append_nil, List.mem_append] at hop
      rcases hop with h | h
      · exact nw1_main_arg16 op h
      · exact nw2_main_arg16 op h),
    Pipeline.withArrays_of_ne _ c (V0 m c) _ main_arg16 (by exact (by decide : ∀ w, Pipeline.arrRef spec0 w ≠ main_arg16))]
  exact V_main_arg16 m c
/-- No later operation writes `main_arg17`, and no window stands on it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg17 = m ((c : Thread nD τ).loc main_arg17) := by
  unfold Pipeline.afterTail₀
  rw [StableHlo.after_of_forall_not_mem (b := Proc.devRef .tc main_arg17) _ _ (by
      intro op hop
      simp only [List.flatten_cons, List.flatten_nil, List.append_nil, List.mem_append] at hop
      rcases hop with h | h
      · exact nw1_main_arg17 op h
      · exact nw2_main_arg17 op h),
    Pipeline.withArrays_of_ne _ c (V0 m c) _ main_arg17 (by exact (by decide : ∀ w, Pipeline.arrRef spec0 w ≠ main_arg17))]
  exact V_main_arg17 m c

end Cert.Kernel.Fr

end
-- ==== Proof.FrameRunK.lean ====
/-
  The frame of `Kernel`: every weakly fair execution of @main terminates without a fault; afterwards each array a
  window stands on holds what the write-backs of the grid's points leave in it, every other unscoped buffer what the
  later host operations compute from those, and each of the eighteen argument arrays what it was launched with (the
  staged ones are only read; the others are never written).
-/
import proofs.«156106_j14087492731175_2_alg».proof.Proof.FrameBodyK
import proofs.«156106_j14087492731175_2_alg».proof.Proof.FrameHostK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
set_option maxHeartbeats 4000000 in
/-- From any memory with zero counters: every weakly fair execution of @main terminates, and every final state has
    every array of the pipeline at what the library computes from the proof data and every other unscoped buffer as
    the later host operations leave it. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- In a final state of the frame run every argument array is as launched: a staged argument is an input window's
    array, which the write-backs never touch; any other argument is a buffer the region bypasses and no later
    operation writes. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨(((h c).1 0).trans (((dats 0 c).arrAt_in 0 rfl _).trans ((hA c 0).trans (V_main_arg0 m c)))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).1 1).trans (((dats 0 c).arrAt_in 1 rfl _).trans ((hA c 1).trans (V_main_arg12 m c)))),
    (((h c).2 main_arg13 (Pipeline.mem_restRefs_of main_arg13 (by decide) (by decide))).trans (W_main_arg13 m dats c)),
    (((h c).1 3).trans (((dats 0 c).arrAt_in 3 rfl _).trans ((hA c 3).trans (V_main_arg14 m c)))),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c)),
    (((h c).2 main_arg17 (Pipeline.mem_restRefs_of main_arg17 (by decide) (by decide))).trans (W_main_arg17 m dats c))⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_kept m dats hA r h c) h

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Fr

end
-- ==== Proof.FrameDefsKI.lean ====
/-
  The proof data of `KernelIdeal`'s one pallas_call (a fused pair of linear layers over row blocks of the word features):
  the arrays as the region finds them, each window's block at a grid point, and what the body leaves in its two
  output staging buffers — the product of the point's 3000 rows with the transposed weight matrix plus the bias
  row, once per relation. Stated at any float instance.
-/
import proofs.«156106_j14087492731175_2_alg».proof.Proof.Gen.KernelIdeal.Launch
import proofs.«156106_j14087492731175_2_alg».proof.Proof.Gen.KernelIdeal.Skeleton
import proofs.«156106_j14087492731175_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch memory after the two reshapes of the bias
    vectors into rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the weight and
    bias windows are fetched once: their block index never moves), for any proof data whose array is the
    region-entry one and whose body leaves the block in place. One statement per window: the block's shape is a
    literal only at a literal window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S3000x256 := Rect.unit (s := S3000x256) ![0, 0] S3000x256.size inb_S3000x256_S3000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-! ## What the body leaves in each output window's buffer -/

/-- The first output's staging buffer after the body: its one whole-block store, of the first relation's linear
    layer of the point's rows. -/
def outA (x0 : Vec F S3000x256 .f32) (x1 : Vec F S256x256 .f32) (x2 : Vec F S1x256 .f32) : Vec F S3000x256 .bf16 :=
  View.canon [⟨rX, k0_pay2 (View.ld x0 rX) (View.ld x1 rW) (View.ld x2 rB)⟩]

/-- The second output's, of the second relation's. -/
def outB (x0 : Vec F S3000x256 .f32) (x3 : Vec F S256x256 .f32) (x4 : Vec F S1x256 .f32) : Vec F S3000x256 .bf16 :=
  View.canon [⟨rX, k0_pay3 (View.ld x0 rX) (View.ld x3 rW) (View.ld x4 rB)⟩]

/-- A whole-block store covers the buffer. -/
theorem cover_out (p0 : Vec F S3000x256 .bf16) (y : S3000x256.Idx) :
    ∃ pc ∈ ([⟨rX, p0⟩] : List (View.Piece (Elt F) S3000x256 .bf16)), y ∈ pc.1.set :=
  View.cover_of_tiled [⟨rX, p0⟩] S3000x256.size (by rfl) y

/-! ## The pipeline's proof data -/

/-- The proof data of the one pipeline on core `c`: the arrays as the region finds them; after the body at point `t`
    each input's buffer at its block and each output's at the linear layer of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA (iblk m c 0 t) (iblk m c 1 t) (iblk m c 2 t)
    | ⟨6, _⟩ => outB (iblk m c 0 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outA (iblk m c 0 t) (iblk m c 1 t) (iblk m c 2 t) := by dsimp only [dats]
theorem after6 (c : Dev nD) (t : Fin cfg0.N) :
    (dats m 0 c).after 6 t = outB (iblk m c 0 t) (iblk m c 3 t) (iblk m c 4 t) := by dsimp only [dats]

/-- Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

end Cert.KernelIdeal.Fr

end
-- ==== Proof.FrameBodyKI.lean ====
/-
  The body obligation of `KernelIdeal`'s pallas_call: run on whole staging buffers — the five inputs at read contents, the
  two outputs at anything — the body loads the row block, both weight matrices and both bias rows, loads (and
  ignores) the two output buffers, and stores one whole block into each output: the linear layer of the loaded
  values. Each input is left as it was. At a grid point the inputs hold their blocks, so the triple applies there.
-/
import proofs.«156106_j14087492731175_2_alg».proof.Proof.FrameDefsKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging memrefs, the inputs' at read contents and the outputs' at anything, runs to the
    continuation holding the inputs' as they were and each output's at the linear layer of the inputs'. -/
theorem sound_kernel (c : Dev nD) (E : Set ℕ) (i : grid0.Coords) (arg1 : Memref sig .tc .vmem S3000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S3000x256 .bf16) (harg6 : arg6.IsWhole) (arg7 : Memref sig .tc .vmem S3000x256 .bf16) (harg7 : arg7.IsWhole)
    (x0 : Vec F S3000x256 .f32) (x1 : Vec F S256x256 .f32) (x2 : Vec F S1x256 .f32) (x3 : Vec F S256x256 .f32) (x4 : Vec F S1x256 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outA x0 x1 x2) ∗ owns (c : Thread nD τ) arg7 fullShare (outB x0 x3 x4)) -∗ K ⟨⟩))
      ⊢ wp frame (wpE (defs₀ (F := F)) Variants.none c none) E (cc0__linear2_kernel i arg1 harg1 arg2 harg2 arg3 harg3 arg4 harg4 arg5 harg5 arg6 harg6 arg7 harg7) K := by
  simp only [cc0__linear2_kernel_eq_skeleton]; unfold cc0__linear2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_out _)
  iexists _; isplitr
  swap; · iexact H6
  ipureintro
  exact View.read_writes_eq_canon _ _ _ (cover_out _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameHostKI.lean ====
/-
  The host side of `KernelIdeal`'s frame: @main is two reshapes, the region, and 97 later host operations (the
  small third linear layer, the three edge-weighted gather / scatter-mean aggregations and the final relu). The
  later operations allocate nothing, touch only unscoped buffers, and each writes only its own result buffer:
  none writes an argument array or an array a window of the region stands on. So every argument ends as launched.
-/
import proofs.«156106_j14087492731175_2_alg».proof.Proof.FrameDefsKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host stretches allocate nothing -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## @main around the region -/

set_option maxHeartbeats 4000000 in
/-- @main is the two reshapes, the region, and then the later host operations: it reduces to the region continued by
    those. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The later operations touch the pipeline's arrays and the bypassing buffers only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-! ## No host operation writes an argument or a window's array

Every host operation writes exactly its own result buffer; the result buffers are the intermediates `main_v3` …
`main_v79`, the constants, and the relu call's own, none of which is an argument or a window's array. One fact per
stretch and buffer, each by comparing the buffer with every result buffer of the stretch. -/

/-- `b` is written by no operation of the list: compared with each operation's one result buffer. -/
macro "not_written" : tactic => `(tactic| (
  refine List.forall_iff_forall_mem.mp ?_
  simp only [hostOps0, hostOps1, hostOps1_1, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem nw0_main_arg0 : ∀ op ∈ (hostOps0 : List (HloOp τ sig (Elt F))), Proc.devRef .tc main_arg0 ∉ op.writes := by not_written
theorem nw0_main_arg1 : ∀ op ∈ (hostOps0 : List (HloOp τ sig (Elt F))), Proc.devRef .tc main_arg1 ∉ op.writes := by not_written
theorem nw0_main_arg2 : ∀ op ∈ (hostOps0 : List (HloOp τ sig (Elt F))), Proc.devRef .tc main_arg2 ∉ op.writes := by not_written
theorem nw0_main_arg3 : ∀ op ∈ (hostOps0 : List (HloOp τ sig (Elt F))), Proc.devRef .tc main_arg3 ∉ op.writes := by not_written
theorem nw0_main_arg4 : ∀ op ∈ (hostOps0 : List (HloOp τ sig (Elt F))), Proc.devRef .tc main_arg4 ∉ op.writes := by not_written
theorem nw0_main_arg5 : ∀ op ∈ (hostOps0 : List (HloOp τ sig (Elt F))), Proc.devRef .tc main_arg5 ∉ op.writes := by not_written
theorem nw0_main_arg6 : ∀ op ∈ (hostOps0 : List (HloOp τ sig (Elt F))), Proc.devRef .tc main_arg6 ∉ op.writes := by not_written
theorem nw0_main_arg7 : ∀ op ∈ (hostOps0 : List (HloOp τ sig (Elt F))), Proc.devRef .tc main_arg7 ∉ op.writes := by not_written
theorem nw0_main_arg8 : ∀ op ∈ (hostOps0 : List (HloOp τ sig (Elt F))), Proc.devRef .tc main_arg8 ∉ op.writes := by not_written
theorem nw0_main_arg9 : ∀ op ∈ (hostOps0 : List (HloOp τ sig (Elt F))), Proc.devRef .tc main_arg9 ∉ op.writes := by not_written
theorem nw0_main_arg10 : ∀ op ∈ (hostOps0 : List (HloOp τ sig (Elt F))), Proc.devRef .tc main_arg10 ∉ op.writes := by not_written
theorem nw0_main_arg11 : ∀ op ∈ (hostOps0 : List (HloOp τ sig (Elt F))), Proc.devRef .tc main_arg11 ∉ op.writes := by not_written
theorem nw0_main_arg12 : ∀ op ∈ (hostOps0 : List (HloOp τ sig (Elt F))), Proc.devRef .tc main_arg12 ∉ op.writes := by not_written
theorem nw0_main_arg13 : ∀ op ∈ (hostOps0 : List (HloOp τ sig (Elt F))), Proc.devRef .tc main_arg13 ∉ op.writes := by not_written
theorem nw0_main_arg14 : ∀ op ∈ (hostOps0 : List (HloOp τ sig (Elt F))), Proc.devRef .tc main_arg14 ∉ op.writes := by not_written
theorem nw0_main_arg15 : ∀ op ∈ (hostOps0 : List (HloOp τ sig (Elt F))), Proc.devRef .tc main_arg15 ∉ op.writes := by not_written
theorem nw0_main_arg16 : ∀ op ∈ (hostOps0 : List (HloOp τ sig (Elt F))), Proc.devRef .tc main_arg16 ∉ op.writes := by not_written
theorem nw0_main_arg17 : ∀ op ∈ (hostOps0 : List (HloOp τ sig (Elt F))), Proc.devRef .tc main_arg17 ∉ op.writes := by not_written

set_option maxHeartbeats 4000000 in
theorem nw1_main_arg0 : ∀ op ∈ (hostOps1 : List (HloOp τ sig (Elt F))), Proc.devRef .tc main_arg0 ∉ op.writes := by not_written
theorem nw2_main_arg0 : ∀ op ∈ (hostOps1_1 : List (HloOp τ sig (Elt F))), Proc.devRef .tc main_arg0 ∉ op.writes := by not_written
set_option maxHeartbeats 4000000 in
theorem nw1_main_arg1 : ∀ op ∈ (hostOps1 : List (HloOp τ sig (Elt F))), Proc.devRef .tc main_arg1 ∉ op.writes := by not_written
theorem nw2_main_arg1 : ∀ op ∈ (hostOps1_1 : List (HloOp τ sig (Elt F))), Proc.devRef .tc main_arg1 ∉ op.writes := by not_written
set_option maxHeartbeats 4000000 in
theorem nw1_main_arg2 : ∀ op ∈ (hostOps1 : List (HloOp τ sig (Elt F))), Proc.devRef .tc main_arg2 ∉ op.writes := by not_written
theorem nw2_main_arg2 : ∀ op ∈ (hostOps1_1 : List (HloOp τ sig (Elt F))), Proc.devRef .tc main_arg2 ∉ op.writes := by not_written
set_option maxHeartbeats 4000000 in
theorem nw1_main_arg3 : ∀ op ∈ (hostOps1 : List (HloOp τ sig (Elt F))), Proc.devRef .tc main_arg3 ∉ op.writes := by not_written
theorem nw2_main_arg3 : ∀ op ∈ (hostOps1_1 : List (HloOp τ sig (Elt F))), Proc.devRef .tc main_arg3 ∉ op.writes := by not_written
set_option maxHeartbeats 4000000 in
theorem nw1_main_arg4 : ∀ op ∈ (hostOps1 : List (HloOp τ sig (Elt F))), Proc.devRef .tc main_arg4 ∉ op.writes := by not_written
theorem nw2_main_arg4 : ∀ op ∈ (hostOps1_1 : List (HloOp τ sig (Elt F))), Proc.devRef .tc main_arg4 ∉ op.writes := by not_written
set_option maxHeartbeats 4000000 in
theorem nw1_main_arg5 : ∀ op ∈ (hostOps1 : List (HloOp τ sig (Elt F))), Proc.devRef .tc main_arg5 ∉ op.writes := by not_written
theorem nw2_main_arg5 : ∀ op ∈ (hostOps1_1 : List (HloOp τ sig (Elt F))), Proc.devRef .tc main_arg5 ∉ op.writes := by not_written
set_option maxHeartbeats 4000000 in
theorem nw1_main_arg6 : ∀ op ∈ (hostOps1 : List (HloOp τ sig (Elt F))), Proc.devRef .tc main_arg6 ∉ op.writes := by not_written
theorem nw2_main_arg6 : ∀ op ∈ (hostOps1_1 : List (HloOp τ sig (Elt F))), Proc.devRef .tc main_arg6 ∉ op.writes := by not_written
set_option maxHeartbeats 4000000 in
theorem nw1_main_arg7 : ∀ op ∈ (hostOps1 : List (HloOp τ sig (Elt F))), Proc.devRef .tc main_arg7 ∉ op.writes := by not_written
theorem nw2_main_arg7 : ∀ op ∈ (hostOps1_1 : List (HloOp τ sig (Elt F))), Proc.devRef .tc main_arg7 ∉ op.writes := by not_written
set_option maxHeartbeats 4000000 in
theorem nw1_main_arg8 : ∀ op ∈ (hostOps1 : List (HloOp τ sig (Elt F))), Proc.devRef .tc main_arg8 ∉ op.writes := by not_written
theorem nw2_main_arg8 : ∀ op ∈ (hostOps1_1 : List (HloOp τ sig (Elt F))), Proc.devRef .tc main_arg8 ∉ op.writes := by not_written
set_option maxHeartbeats 4000000 in
theorem nw1_main_arg9 : ∀ op ∈ (hostOps1 : List (HloOp τ sig (Elt F))), Proc.devRef .tc main_arg9 ∉ op.writes := by not_written
theorem nw2_main_arg9 : ∀ op ∈ (hostOps1_1 : List (HloOp τ sig (Elt F))), Proc.devRef .tc main_arg9 ∉ op.writes := by not_written
set_option maxHeartbeats 4000000 in
theorem nw1_main_arg10 : ∀ op ∈ (hostOps1 : List (HloOp τ sig (Elt F))), Proc.devRef .tc main_arg10 ∉ op.writes := by not_written
theorem nw2_main_arg10 : ∀ op ∈ (hostOps1_1 : List (HloOp τ sig (Elt F))), Proc.devRef .tc main_arg10 ∉ op.writes := by not_written
set_option maxHeartbeats 4000000 in
theorem nw1_main_arg11 : ∀ op ∈ (hostOps1 : List (HloOp τ sig (Elt F))), Proc.devRef .tc main_arg11 ∉ op.writes := by not_written
theorem nw2_main_arg11 : ∀ op ∈ (hostOps1_1 : List (HloOp τ sig (Elt F))), Proc.devRef .tc main_arg11 ∉ op.writes := by not_written
set_option maxHeartbeats 4000000 in
theorem nw1_main_arg12 : ∀ op ∈ (hostOps1 : List (HloOp τ sig (Elt F))), Proc.devRef .tc main_arg12 ∉ op.writes := by not_written
theorem nw2_main_arg12 : ∀ op ∈ (hostOps1_1 : List (HloOp τ sig (Elt F))), Proc.devRef .tc main_arg12 ∉ op.writes := by not_written
set_option maxHeartbeats 4000000 in
theorem nw1_main_arg13 : ∀ op ∈ (hostOps1 : List (HloOp τ sig (Elt F))), Proc.devRef .tc main_arg13 ∉ op.writes := by not_written
theorem nw2_main_arg13 : ∀ op ∈ (hostOps1_1 : List (HloOp τ sig (Elt F))), Proc.devRef .tc main_arg13 ∉ op.writes := by not_written
set_option maxHeartbeats 4000000 in
theorem nw1_main_arg14 : ∀ op ∈ (hostOps1 : List (HloOp τ sig (Elt F))), Proc.devRef .tc main_arg14 ∉ op.writes := by not_written
theorem nw2_main_arg14 : ∀ op ∈ (hostOps1_1 : List (HloOp τ sig (Elt F))), Proc.devRef .tc main_arg14 ∉ op.writes := by not_written
set_option maxHeartbeats 4000000 in
theorem nw1_main_arg15 : ∀ op ∈ (hostOps1 : List (HloOp τ sig (Elt F))), Proc.devRef .tc main_arg15 ∉ op.writes := by not_written
theorem nw2_main_arg15 : ∀ op ∈ (hostOps1_1 : List (HloOp τ sig (Elt F))), Proc.devRef .tc main_arg15 ∉ op.writes := by not_written
set_option maxHeartbeats 4000000 in
theorem nw1_main_arg16 : ∀ op ∈ (hostOps1 : List (HloOp τ sig (Elt F))), Proc.devRef .tc main_arg16 ∉ op.writes := by not_written
theorem nw2_main_arg16 : ∀ op ∈ (hostOps1_1 : List (HloOp τ sig (Elt F))), Proc.devRef .tc main_arg16 ∉ op.writes := by not_written
set_option maxHeartbeats 4000000 in
theorem nw1_main_arg17 : ∀ op ∈ (hostOps1 : List (HloOp τ sig (Elt F))), Proc.devRef .tc main_arg17 ∉ op.writes := by not_written
theorem nw2_main_arg17 : ∀ op ∈ (hostOps1_1 : List (HloOp τ sig (Elt F))), Proc.devRef .tc main_arg17 ∉ op.writes := by not_written
set_option maxHeartbeats 4000000 in
theorem nw1_main_v0 : ∀ op ∈ (hostOps1 : List (HloOp τ sig (Elt F))), Proc.devRef .tc main_v0 ∉ op.writes := by not_written
theorem nw2_main_v0 : ∀ op ∈ (hostOps1_1 : List (HloOp τ sig (Elt F))), Proc.devRef .tc main_v0 ∉ op.writes := by not_written
set_option maxHeartbeats 4000000 in
theorem nw1_main_v1 : ∀ op ∈ (hostOps1 : List (HloOp τ sig (Elt F))), Proc.devRef .tc main_v1 ∉ op.writes := by not_written
theorem nw2_main_v1 : ∀ op ∈ (hostOps1_1 : List (HloOp τ sig (Elt F))), Proc.devRef .tc main_v1 ∉ op.writes := by not_written
set_option maxHeartbeats 4000000 in
theorem nw1_main_v2_0 : ∀ op ∈ (hostOps1 : List (HloOp τ sig (Elt F))), Proc.devRef .tc main_v2_0 ∉ op.writes := by not_written
theorem nw2_main_v2_0 : ∀ op ∈ (hostOps1_1 : List (HloOp τ sig (Elt F))), Proc.devRef .tc main_v2_0 ∉ op.writes := by not_written
set_option maxHeartbeats 4000000 in
theorem nw1_main_v2_1 : ∀ op ∈ (hostOps1 : List (HloOp τ sig (Elt F))), Proc.devRef .tc main_v2_1 ∉ op.writes := by not_written
theorem nw2_main_v2_1 : ∀ op ∈ (hostOps1_1 : List (HloOp τ sig (Elt F))), Proc.devRef .tc main_v2_1 ∉ op.writes := by not_written

/-- No later operation writes an array a window stands on. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl
  · fin_cases w
    · exact nw1_main_arg0 op hop
    · exact nw1_main_arg12 op hop
    · exact nw1_main_v0 op hop
    · exact nw1_main_arg14 op hop
    · exact nw1_main_v1 op hop
    · exact nw1_main_v2_0 op hop
    · exact nw1_main_v2_1 op hop
  · fin_cases w
    · exact nw2_main_arg0 op hop
    · exact nw2_main_arg12 op hop
    · exact nw2_main_v0 op hop
    · exact nw2_main_arg14 op hop
    · exact nw2_main_v1 op hop
    · exact nw2_main_v2_0 op hop
    · exact nw2_main_v2_1 op hop

/-! ## Each argument as the region finds it, and as @main leaves it -/

/-- The reshapes before the region do not write `main_arg0`: the region finds it as launched. -/
theorem V_main_arg0 (c : Dev nD) : V m c main_arg0 = m ((c : Thread nD τ).loc main_arg0) :=
  StableHlo.after_of_forall_not_mem (b := Proc.devRef .tc main_arg0) _ _ (by
    simp only [List.flatten_cons, List.flatten_nil, List.append_nil]; exact nw0_main_arg0)
/-- The reshapes before the region do not write `main_arg1`: the region finds it as launched. -/
theorem V_main_arg1 (c : Dev nD) : V m c main_arg1 = m ((c : Thread nD τ).loc main_arg1) :=
  StableHlo.after_of_forall_not_mem (b := Proc.devRef .tc main_arg1) _ _ (by
    simp only [List.flatten_cons, List.flatten_nil, List.append_nil]; exact nw0_main_arg1)
/-- The reshapes before the region do not write `main_arg2`: the region finds it as launched. -/
theorem V_main_arg2 (c : Dev nD) : V m c main_arg2 = m ((c : Thread nD τ).loc main_arg2) :=
  StableHlo.after_of_forall_not_mem (b := Proc.devRef .tc main_arg2) _ _ (by
    simp only [List.flatten_cons, List.flatten_nil, List.append_nil]; exact nw0_main_arg2)
/-- The reshapes before the region do not write `main_arg3`: the region finds it as launched. -/
theorem V_main_arg3 (c : Dev nD) : V m c main_arg3 = m ((c : Thread nD τ).loc main_arg3) :=
  StableHlo.after_of_forall_not_mem (b := Proc.devRef .tc main_arg3) _ _ (by
    simp only [List.flatten_cons, List.flatten_nil, List.append_nil]; exact nw0_main_arg3)
/-- The reshapes before the region do not write `main_arg4`: the region finds it as launched. -/
theorem V_main_arg4 (c : Dev nD) : V m c main_arg4 = m ((c : Thread nD τ).loc main_arg4) :=
  StableHlo.after_of_forall_not_mem (b := Proc.devRef .tc main_arg4) _ _ (by
    simp only [List.flatten_cons, List.flatten_nil, List.append_nil]; exact nw0_main_arg4)
/-- The reshapes before the region do not write `main_arg5`: the region finds it as launched. -/
theorem V_main_arg5 (c : Dev nD) : V m c main_arg5 = m ((c : Thread nD τ).loc main_arg5) :=
  StableHlo.after_of_forall_not_mem (b := Proc.devRef .tc main_arg5) _ _ (by
    simp only [List.flatten_cons, List.flatten_nil, List.append_nil]; exact nw0_main_arg5)
/-- The reshapes before the region do not write `main_arg6`: the region finds it as launched. -/
theorem V_main_arg6 (c : Dev nD) : V m c main_arg6 = m ((c : Thread nD τ).loc main_arg6) :=
  StableHlo.after_of_forall_not_mem (b := Proc.devRef .tc main_arg6) _ _ (by
    simp only [List.flatten_cons, List.flatten_nil, List.append_nil]; exact nw0_main_arg6)
/-- The reshapes before the region do not write `main_arg7`: the region finds it as launched. -/
theorem V_main_arg7 (c : Dev nD) : V m c main_arg7 = m ((c : Thread nD τ).loc main_arg7) :=
  StableHlo.after_of_forall_not_mem (b := Proc.devRef .tc main_arg7) _ _ (by
    simp only [List.flatten_cons, List.flatten_nil, List.append_nil]; exact nw0_main_arg7)
/-- The reshapes before the region do not write `main_arg8`: the region finds it as launched. -/
theorem V_main_arg8 (c : Dev nD) : V m c main_arg8 = m ((c : Thread nD τ).loc main_arg8) :=
  StableHlo.after_of_forall_not_mem (b := Proc.devRef .tc main_arg8) _ _ (by
    simp only [List.flatten_cons, List.flatten_nil, List.append_nil]; exact nw0_main_arg8)
/-- The reshapes before the region do not write `main_arg9`: the region finds it as launched. -/
theorem V_main_arg9 (c : Dev nD) : V m c main_arg9 = m ((c : Thread nD τ).loc main_arg9) :=
  StableHlo.after_of_forall_not_mem (b := Proc.devRef .tc main_arg9) _ _ (by
    simp only [List.flatten_cons, List.flatten_nil, List.append_nil]; exact nw0_main_arg9)
/-- The reshapes before the region do not write `main_arg10`: the region finds it as launched. -/
theorem V_main_arg10 (c : Dev nD) : V m c main_arg10 = m ((c : Thread nD τ).loc main_arg10) :=
  StableHlo.after_of_forall_not_mem (b := Proc.devRef .tc main_arg10) _ _ (by
    simp only [List.flatten_cons, List.flatten_nil, List.append_nil]; exact nw0_main_arg10)
/-- The reshapes before the region do not write `main_arg11`: the region finds it as launched. -/
theorem V_main_arg11 (c : Dev nD) : V m c main_arg11 = m ((c : Thread nD τ).loc main_arg11) :=
  StableHlo.after_of_forall_not_mem (b := Proc.devRef .tc main_arg11) _ _ (by
    simp only [List.flatten_cons, List.flatten_nil, List.append_nil]; exact nw0_main_arg11)
/-- The reshapes before the region do not write `main_arg12`: the region finds it as launched. -/
theorem V_main_arg12 (c : Dev nD) : V m c main_arg12 = m ((c : Thread nD τ).loc main_arg12) :=
  StableHlo.after_of_forall_not_mem (b := Proc.devRef .tc main_arg12) _ _ (by
    simp only [List.flatten_cons, List.flatten_nil, List.append_nil]; exact nw0_main_arg12)
/-- The reshapes before the region do not write `main_arg13`: the region finds it as launched. -/
theorem V_main_arg13 (c : Dev nD) : V m c main_arg13 = m ((c : Thread nD τ).loc main_arg13) :=
  StableHlo.after_of_forall_not_mem (b := Proc.devRef .tc main_arg13) _ _ (by
    simp only [List.flatten_cons, List.flatten_nil, List.append_nil]; exact nw0_main_arg13)
/-- The reshapes before the region do not write `main_arg14`: the region finds it as launched. -/
theorem V_main_arg14 (c : Dev nD) : V m c main_arg14 = m ((c : Thread nD τ).loc main_arg14) :=
  StableHlo.after_of_forall_not_mem (b := Proc.devRef .tc main_arg14) _ _ (by
    simp only [List.flatten_cons, List.flatten_nil, List.append_nil]; exact nw0_main_arg14)
/-- The reshapes before the region do not write `main_arg15`: the region finds it as launched. -/
theorem V_main_arg15 (c : Dev nD) : V m c main_arg15 = m ((c : Thread nD τ).loc main_arg15) :=
  StableHlo.after_of_forall_not_mem (b := Proc.devRef .tc main_arg15) _ _ (by
    simp only [List.flatten_cons, List.flatten_nil, List.append_nil]; exact nw0_main_arg15)
/-- The reshapes before the region do not write `main_arg16`: the region finds it as launched. -/
theorem V_main_arg16 (c : Dev nD) : V m c main_arg16 = m ((c : Thread nD τ).loc main_arg16) :=
  StableHlo.after_of_forall_not_mem (b := Proc.devRef .tc main_arg16) _ _ (by
    simp only [List.flatten_cons, List.flatten_nil, List.append_nil]; exact nw0_main_arg16)
/-- The reshapes before the region do not write `main_arg17`: the region finds it as launched. -/
theorem V_main_arg17 (c : Dev nD) : V m c main_arg17 = m ((c : Thread nD τ).loc main_arg17) :=
  StableHlo.after_of_forall_not_mem (b := Proc.devRef .tc main_arg17) _ _ (by
    simp only [List.flatten_cons, List.flatten_nil, List.append_nil]; exact nw0_main_arg17)

/-- No later operation writes `main_arg1`, and no window stands on it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (by
      intro op hop
      simp only [List.flatten_cons, List.flatten_nil, List.append_nil, List.mem_append] at hop
      rcases hop with h | h
      · exact nw1_main_arg1 op h
      · exact nw2_main_arg1 op h),
    Pipeline.withArrays_of_ne _ c (V0 m c) _ main_arg1 (by exact (by decide : ∀ w, Pipeline.arrRef spec0 w ≠ main_arg1))]
  exact V_main_arg1 m c
/-- No later operation writes `main_arg2`, and no window stands on it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (by
      intro op hop
      simp only [List.flatten_cons, List.flatten_nil, List.append_nil, List.mem_append] at hop
      rcases hop with h | h
      · exact nw1_main_arg2 op h
      · exact nw2_main_arg2 op h),
    Pipeline.withArrays_of_ne _ c (V0 m c) _ main_arg2 (by exact (by decide : ∀ w, Pipeline.arrRef spec0 w ≠ main_arg2))]
  exact V_main_arg2 m c
/-- No later operation writes `main_arg3`, and no window stands on it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (by
      intro op hop
      simp only [List.flatten_cons, List.flatten_nil, List.append_nil, List.mem_append] at hop
      rcases hop with h | h
      · exact nw1_main_arg3 op h
      · exact nw2_main_arg3 op h),
    Pipeline.withArrays_of_ne _ c (V0 m c) _ main_arg3 (by exact (by decide : ∀ w, Pipeline.arrRef spec0 w ≠ main_arg3))]
  exact V_main_arg3 m c
/-- No later operation writes `main_arg4`, and no window stands on it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (by
      intro op hop
      simp only [List.flatten_cons, List.flatten_nil, List.append_nil, List.mem_append] at hop
      rcases hop with h | h
      · exact nw1_main_arg4 op h
      · exact nw2_main_arg4 op h),
    Pipeline.withArrays_of_ne _ c (V0 m c) _ main_arg4 (by exact (by decide : ∀ w, Pipeline.arrRef spec0 w ≠ main_arg4))]
  exact V_main_arg4 m c
/-- No later operation writes `main_arg5`, and no window stands on it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (by
      intro op hop
      simp only [List.flatten_cons, List.flatten_nil, List.append_nil, List.mem_append] at hop
      rcases hop with h | h
      · exact nw1_main_arg5 op h
      · exact nw2_main_arg5 op h),
    Pipeline.withArrays_of_ne _ c (V0 m c) _ main_arg5 (by exact (by decide : ∀ w, Pipeline.arrRef spec0 w ≠ main_arg5))]
  exact V_main_arg5 m c
/-- No later operation writes `main_arg6`, and no window stands on it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (by
      intro op hop
      simp only [List.flatten_cons, List.flatten_nil, List.append_nil, List.mem_append] at hop
      rcases hop with h | h
      · exact nw1_main_arg6 op h
      · exact nw2_main_arg6 op h),
    Pipeline.withArrays_of_ne _ c (V0 m c) _ main_arg6 (by exact (by decide : ∀ w, Pipeline.arrRef spec0 w ≠ main_arg6))]
  exact V_main_arg6 m c
/-- No later operation writes `main_arg7`, and no window stands on it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg7 = m ((c : Thread nD τ).loc main_arg7) := by
  unfold Pipeline.afterTail₀
  rw [StableHlo.after_of_forall_not_mem (b := Proc.devRef .tc main_arg7) _ _ (by
      intro op hop
      simp only [List.flatten_cons, List.flatten_nil, List.append_nil, List.mem_append] at hop
      rcases hop with h | h
      · exact nw1_main_arg7 op h
      · exact nw2_main_arg7 op h),
    Pipeline.withArrays_of_ne _ c (V0 m c) _ main_arg7 (by exact (by decide : ∀ w, Pipeline.arrRef spec0 w ≠ main_arg7))]
  exact V_main_arg7 m c
/-- No later operation writes `main_arg8`, and no window stands on it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg8 = m ((c : Thread nD τ).loc main_arg8) := by
  unfold Pipeline.afterTail₀
  rw [StableHlo.after_of_forall_not_mem (b := Proc.devRef .tc main_arg8) _ _ (by
      intro op hop
      simp only [List.flatten_cons, List.flatten_nil, List.append_nil, List.mem_append] at hop
      rcases hop with h | h
      · exact nw1_main_arg8 op h
      · exact nw2_main_arg8 op h),
    Pipeline.withArrays_of_ne _ c (V0 m c) _ main_arg8 (by exact (by decide : ∀ w, Pipeline.arrRef spec0 w ≠ main_arg8))]
  exact V_main_arg8 m c
/-- No later operation writes `main_arg9`, and no window stands on it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg9 = m ((c : Thread nD τ).loc main_arg9) := by
  unfold Pipeline.afterTail₀
  rw [StableHlo.after_of_forall_not_mem (b := Proc.devRef .tc main_arg9) _ _ (by
      intro op hop
      simp only [List.flatten_cons, List.flatten_nil, List.append_nil, List.mem_append] at hop
      rcases hop with h | h
      · exact nw1_main_arg9 op h
      · exact nw2_main_arg9 op h),
    Pipeline.withArrays_of_ne _ c (V0 m c) _ main_arg9 (by exact (by decide : ∀ w, Pipeline.arrRef spec0 w ≠ main_arg9))]
  exact V_main_arg9 m c
/-- No later operation writes `main_arg10`, and no window stands on it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg10 = m ((c : Thread nD τ).loc main_arg10) := by
  unfold Pipeline.afterTail₀
  rw [StableHlo.after_of_forall_not_mem (b := Proc.devRef .tc main_arg10) _ _ (by
      intro op hop
      simp only [List.flatten_cons, List.flatten_nil, List.append_nil, List.mem_append] at hop
      rcases hop with h | h
      · exact nw1_main_arg10 op h
      · exact nw2_main_arg10 op h),
    Pipeline.withArrays_of_ne _ c (V0 m c) _ main_arg10 (by exact (by decide : ∀ w, Pipeline.arrRef spec0 w ≠ main_arg10))]
  exact V_main_arg10 m c
/-- No later operation writes `main_arg11`, and no window stands on it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg11 = m ((c : Thread nD τ).loc main_arg11) := by
  unfold Pipeline.afterTail₀
  rw [StableHlo.after_of_forall_not_mem (b := Proc.devRef .tc main_arg11) _ _ (by
      intro op hop
      simp only [List.flatten_cons, List.flatten_nil, List.append_nil, List.mem_append] at hop
      rcases hop with h | h
      · exact nw1_main_arg11 op h
      · exact nw2_main_arg11 op h),
    Pipeline.withArrays_of_ne _ c (V0 m c) _ main_arg11 (by exact (by decide : ∀ w, Pipeline.arrRef spec0 w ≠ main_arg11))]
  exact V_main_arg11 m c
/-- No later operation writes `main_arg13`, and no window stands on it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg13 = m ((c : Thread nD τ).loc main_arg13) := by
  unfold Pipeline.afterTail₀
  rw [StableHlo.after_of_forall_not_mem (b := Proc.devRef .tc main_arg13) _ _ (by
      intro op hop
      simp only [List.flatten_cons, List.flatten_nil, List.append_nil, List.mem_append] at hop
      rcases hop with h | h
      · exact nw1_main_arg13 op h
      · exact nw2_main_arg13 op h),
    Pipeline.withArrays_of_ne _ c (V0 m c) _ main_arg13 (by exact (by decide : ∀ w, Pipeline.arrRef spec0 w ≠ main_arg13))]
  exact V_main_arg13 m c
/-- No later operation writes `main_arg15`, and no window stands on it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg15 = m ((c : Thread nD τ).loc main_arg15) := by
  unfold Pipeline.afterTail₀
  rw [StableHlo.after_of_forall_not_mem (b := Proc.devRef .tc main_arg15) _ _ (by
      intro op hop
      simp only [List.flatten_cons, List.flatten_nil, List.append_nil, List.mem_append] at hop
      rcases hop with h | h
      · exact nw1_main_arg15 op h
      · exact nw2_main_arg15 op h),
    Pipeline.withArrays_of_ne _ c (V0 m c) _ main_arg15 (by exact (by decide : ∀ w, Pipeline.arrRef spec0 w ≠ main_arg15))]
  exact V_main_arg15 m c
/-- No later operation writes `main_arg16`, and no window stands on it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg16 = m ((c : Thread nD τ).loc main_arg16) := by
  unfold Pipeline.afterTail₀
  rw [StableHlo.after_of_forall_not_mem (b := Proc.devRef .tc main_arg16) _ _ (by
      intro op hop
      simp only [List.flatten_cons, List.flatten_nil, List.append_nil, List.mem_append] at hop
      rcases hop with h | h
      · exact nw1_main_arg16 op h
      · exact nw2_main_arg16 op h),
    Pipeline.withArrays_of_ne _ c (V0 m c) _ main_arg16 (by exact (by decide : ∀ w, Pipeline.arrRef spec0 w ≠ main_arg16))]
  exact V_main_arg16 m c
/-- No later operation writes `main_arg17`, and no window stands on it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg17 = m ((c : Thread nD τ).loc main_arg17) := by
  unfold Pipeline.afterTail₀
  rw [StableHlo.after_of_forall_not_mem (b := Proc.devRef .tc main_arg17) _ _ (by
      intro op hop
      simp only [List.flatten_cons, List.flatten_nil, List.append_nil, List.mem_append] at hop
      rcases hop with h | h
      · exact nw1_main_arg17 op h
      · exact nw2_main_arg17 op h),
    Pipeline.withArrays_of_ne _ c (V0 m c) _ main_arg17 (by exact (by decide : ∀ w, Pipeline.arrRef spec0 w ≠ main_arg17))]
  exact V_main_arg17 m c

end Cert.KernelIdeal.Fr

end
-- ==== Proof.FrameRunKI.lean ====
/-
  The frame of `KernelIdeal`: every weakly fair execution of @main terminates without a fault; afterwards each array a
  window stands on holds what the write-backs of the grid's points leave in it, every other unscoped buffer what the
  later host operations compute from those, and each of the eighteen argument arrays what it was launched with (the
  staged ones are only read; the others are never written).
-/
import proofs.«156106_j14087492731175_2_alg».proof.Proof.FrameBodyKI
import proofs.«156106_j14087492731175_2_alg».proof.Proof.FrameHostKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
set_option maxHeartbeats 4000000 in
/-- From any memory with zero counters: every weakly fair execution of @main terminates, and every final state has
    every array of the pipeline at what the library computes from the proof data and every other unscoped buffer as
    the later host operations leave it. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- In a final state of the frame run every argument array is as launched: a staged argument is an input window's
    array, which the write-backs never touch; any other argument is a buffer the region bypasses and no later
    operation writes. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1, hostOps1_1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨(((h c).1 0).trans (((dats 0 c).arrAt_in 0 rfl _).trans ((hA c 0).trans (V_main_arg0 m c)))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c)),
    (((h c).2 main_arg8 (Pipeline.mem_restRefs_of main_arg8 (by decide) (by decide))).trans (W_main_arg8 m dats c)),
    (((h c).2 main_arg9 (Pipeline.mem_restRefs_of main_arg9 (by decide) (by decide))).trans (W_main_arg9 m dats c)),
    (((h c).2 main_arg10 (Pipeline.mem_restRefs_of main_arg10 (by decide) (by decide))).trans (W_main_arg10 m dats c)),
    (((h c).2 main_arg11 (Pipeline.mem_restRefs_of main_arg11 (by decide) (by decide))).trans (W_main_arg11 m dats c)),
    (((h c).1 1).trans (((dats 0 c).arrAt_in 1 rfl _).trans ((hA c 1).trans (V_main_arg12 m c)))),
    (((h c).2 main_arg13 (Pipeline.mem_restRefs_of main_arg13 (by decide) (by decide))).trans (W_main_arg13 m dats c)),
    (((h c).1 3).trans (((dats 0 c).arrAt_in 3 rfl _).trans ((hA c 3).trans (V_main_arg14 m c)))),
    (((h c).2 main_arg15 (Pipeline.mem_restRefs_of main_arg15 (by decide) (by decide))).trans (W_main_arg15 m dats c)),
    (((h c).2 main_arg16 (Pipeline.mem_restRefs_of main_arg16 (by decide) (by decide))).trans (W_main_arg16 m dats c)),
    (((h c).2 main_arg17 (Pipeline.mem_restRefs_of main_arg17 (by decide) (by decide))).trans (W_main_arg17 m dats c))⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => args_kept m dats hA r h c) h

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Fr

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.PayloadAt.lean ====
/-
  The kernel's two output payloads, each read at one entry.

  One block of the kernel computes, for each of its two weight matrices W and bias rows b, the array
  x · Wᵀ + b over the block's 3000 rows of the input x: it narrows x and W to the short format, transposes W,
  multiplies into a zero accumulator, spreads the single bias row down all rows, adds, and narrows the sum for the
  store. At the ideal instance a float of either format is an extended real and a change of format is the identity,
  so the narrowing steps disappear and entry (p, q) of the payload is

      (∑ k, x (p, k) * W (q, k)) + b (0, q).

  The product into the zero accumulator is read at (p, q) as the sum over the one contracted coordinate k of the left
  operand at (p, k) times the right operand at (k, q); the right operand is the transposed matrix, whose entry (k, q)
  is W's entry (q, k). That reading asks four facts of the dimension numbers (the left index takes the result's row
  and the contraction position, the right index the contraction position and the result's column), proved below by
  evaluating the record's membership tests on its literal axis lists. The bias term is the row broadcast read at
  (p, q), which is the row's entry (0, q); the shape cast before it is from a shape to itself, hence the identity.

  `dot_rank` … `dot_rhs1`   the contraction has one axis of extent 256, and where the operand indices sit;
  `linear_at`              the common shape of both payloads at an entry;
  `pay2_at`, `pay3_at`     the two payloads.
-/
import proofs.«156106_j14087492731175_2_alg».proof.Proof.Gen.KernelIdeal.Skeleton
import proofs.«156106_j14087492731175_2_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-! ## The dimension numbers of the block's product -/

/-- The product contracts one axis … -/
theorem dot_rank : dot_S3000x256_S256x256_S3000x256_1_0_0_1_n_n.contr.rank = 1 := rfl

/-- … of extent 256. -/
theorem dot_size : dot_S3000x256_S256x256_S3000x256_1_0_0_1_n_n.contr.size ⟨0, by decide⟩ = 256 := rfl

/-- The left operand's row is the result's row: axis 0 of the left operand is not a batch axis and is its one free
    axis. -/
theorem dot_lhs0 (i : S3000x256.Idx) (q : dot_S3000x256_S256x256_S3000x256_1_0_0_1_n_n.contr.Idx) :
    (dot_S3000x256_S256x256_S3000x256_1_0_0_1_n_n.lhsIdx i q (0 : Fin 2)).val = (i (0 : Fin 2)).val := by
  unfold DotDims.lhsIdx
  rw [dif_neg (show ¬(0 : Fin S3000x256.rank) ∈ dot_S3000x256_S256x256_S3000x256_1_0_0_1_n_n.lhsBatch by decide),
    dif_pos (show (0 : Fin S3000x256.rank) ∈ dot_S3000x256_S256x256_S3000x256_1_0_0_1_n_n.lhsNonContracting by decide)]
  rfl

/-- The left operand's column is the contraction position: axis 1 is its one contracted axis. -/
theorem dot_lhs1 (i : S3000x256.Idx) (q : dot_S3000x256_S256x256_S3000x256_1_0_0_1_n_n.contr.Idx) :
    (dot_S3000x256_S256x256_S3000x256_1_0_0_1_n_n.lhsIdx i q (1 : Fin 2)).val = (q ⟨0, by decide⟩).val :=
  dot_S3000x256_S256x256_S3000x256_1_0_0_1_n_n.lhsIdx_val_of_single rfl i q

/-- The right operand's row is the contraction position: axis 0 is its one contracted axis. -/
theorem dot_rhs0 (i : S3000x256.Idx) (q : dot_S3000x256_S256x256_S3000x256_1_0_0_1_n_n.contr.Idx) :
    (dot_S3000x256_S256x256_S3000x256_1_0_0_1_n_n.rhsIdx i q (0 : Fin 2)).val = (q ⟨0, by decide⟩).val :=
  dot_S3000x256_S256x256_S3000x256_1_0_0_1_n_n.rhsIdx_val_of_single rfl i q

/-- The right operand's column is the result's column: axis 1 of the right operand is not a batch axis and is its one
    free axis. -/
theorem dot_rhs1 (i : S3000x256.Idx) (q : dot_S3000x256_S256x256_S3000x256_1_0_0_1_n_n.contr.Idx) :
    (dot_S3000x256_S256x256_S3000x256_1_0_0_1_n_n.rhsIdx i q (1 : Fin 2)).val = (i (1 : Fin 2)).val := by
  unfold DotDims.rhsIdx
  rw [dif_neg (show ¬(1 : Fin S256x256.rank) ∈ dot_S3000x256_S256x256_S3000x256_1_0_0_1_n_n.rhsBatch by decide),
    dif_pos (show (1 : Fin S256x256.rank) ∈ dot_S3000x256_S256x256_S3000x256_1_0_0_1_n_n.rhsNonContracting by decide)]
  rfl

/-! ## One linear layer of the block at an entry -/

/-- The block's linear layer over input `x`, weight matrix `w` and bias row `b`, at entry (p, q): the narrowed sum of
    the product of narrowed `x` with the transpose of narrowed `w` (into a zero accumulator) and of `b` spread down the
    rows is `(∑ k, x (p, k) * w (q, k)) + b (0, q)`. Both payloads are this term. -/
theorem linear_at (x : FVec Ideal S3000x256 .f32) (w : FVec Ideal S256x256 .f32) (b : FVec Ideal S1x256 .f32)
    (hlt : FTy.bits .bf16 < FTy.bits .f32) (ht : S256x256.Transposes [1, 0] S256x256) (hc : S1x256.ShapeCasts S1x256)
    (hb : S1x256.Broadcasts S3000x256) (p : Fin 3000) (q : Fin 256) :
    (truncf .bf16 (addf (matmul dot_S3000x256_S256x256_S3000x256_1_0_0_1_n_n none (truncf .bf16 x hlt : FVec Ideal S3000x256 .bf16)
        (transpose S256x256 [1, 0] (truncf .bf16 w hlt : FVec Ideal S256x256 .bf16) ht) (constant (F := Ideal) S3000x256 .f32 0x00000000#32))
      (broadcastTo S3000x256 (shapeCast S1x256 b hc) hb)) hlt : FVec Ideal S3000x256 .bf16) (ix2 p q)
      = (∑ k : Fin 256, x (ix2 p k) * w (ix2 q k)) + b (ix2 (0 : Fin 1) q) := by
  refine (truncf_apply _ hlt (ix2 p q)).trans ?_
  refine (addf_apply _ _ (ix2 p q)).trans ?_
  refine congrArg₂ (· + ·) ?_ ?_
  · refine (MatmulAt.matmul_zero_ix2 dot_S3000x256_S256x256_S3000x256_1_0_0_1_n_n dot_rank dot_size dot_lhs0 dot_lhs1 dot_rhs0 dot_rhs1
      none _ _ p q).trans (Finset.sum_congr rfl fun k _ => ?_)
    refine congrArg₂ (· * ·) (truncf_apply x hlt (ix2 p k)) ?_
    exact (transpose_ix2_apply _ ht k q).trans (truncf_apply w hlt (ix2 q k))
  · refine (broadcastTo_1b_ab_apply _ hb p q).trans ?_
    exact congrFun (shapeCast_self b hc) (ix2 (0 : Fin 1) q)

/-! ## The two payloads -/

/-- The first output's payload at entry (p, q): the input block `v0`, the first weight matrix `v2` and the first bias
    row `v8` through the block's linear layer. -/
theorem pay2_at (v0 : Vec Ideal S3000x256 .f32) (v2 : Vec Ideal S256x256 .f32) (v8 : Vec Ideal S1x256 .f32) (p : Fin 3000) (q : Fin 256) :
    k0_pay2 (F := Ideal) v0 v2 v8 (ix2 p q) = (∑ k : Fin 256, v0 (ix2 p k) * v2 (ix2 q k)) + v8 (ix2 (0 : Fin 1) q) := by
  unfold k0_pay2 k0_pay1
  exact linear_at v0 v2 v8 _ _ _ _ p q

/-- The second output's payload at entry (p, q): the same input block, the second weight matrix `v4` and the second
    bias row `v14` through the same layer. -/
theorem pay3_at (v0 : Vec Ideal S3000x256 .f32) (v4 : Vec Ideal S256x256 .f32) (v14 : Vec Ideal S1x256 .f32) (p : Fin 3000) (q : Fin 256) :
    k0_pay3 (F := Ideal) v0 v4 v14 (ix2 p q) = (∑ k : Fin 256, v0 (ix2 p k) * v4 (ix2 q k)) + v14 (ix2 (0 : Fin 1) q) := by
  unfold k0_pay3 k0_pay1
  exact linear_at v0 v4 v14 _ _ _ _ p q

end Cert.KernelIdeal.PayloadAt

end
-- ==== Proof.RefLinearAt.lean ====
/-
  The reference's two linear layers, each read at one entry.

  The reference computes a linear layer in four steps: it transposes the weight matrix W, contracts the second
  axis of the input x with the first axis of the transposed matrix, spreads the bias vector b first to a single
  row and then down all 30000 rows, and adds the two arrays. At the ideal instance the contraction is a finite sum of
  products of extended reals and the addition is the extended reals' own, so entry (p, q) of the result is

      (∑ k, x (p, k) * W (q, k)) + b q,

  the transpose having turned the transposed matrix's entry (k, q) back into W's entry (q, k). The proof reads
  each step at an index with the generated reading lemmas, outermost first, and then identifies the three computed
  indices with indices written by coordinates: the input is read at (p, k), the weight matrix at (q, k) (the index
  of the transposed matrix, passed through the transpose), and the bias at q (the index of the spread array, passed
  through both spreadings). Each identification is an equality of two functions on a two-point or one-point set of
  axes, checked axis by axis.

  `wh_wt_at`   the first layer (weights `x12`, bias `x13`);
  `wh_wd_at`   the second layer (weights `x14`, bias `x15`), the same argument over the second group of steps.
-/
import proofs.«156106_j14087492731175_2_alg».proof.Proof.Gen.ReferenceIdeal.Read
import Idealize.ShloMosaic.Lib.ValueIdx
import Idealize.ShloMosaic.PureOps.Ideal.Laws

noncomputable section

open scoped BigOperators

namespace Cert.ReferenceIdeal.LinearAt

open Cert.ReferenceIdeal Cert.ReferenceIdeal.Read Idealize.ShloMosaic Idealize.ShloMosaic.ValueIdx

/-! ## The computed indices, written by coordinates -/

/-- The first contraction reads its left operand, for result entry (p, q) and contraction position k, at (p, k). -/
theorem lidx_v1_ix2 (p : Fin 30000) (q k : Fin 256) : lidx_main_v1 (ix2 p q) k = ix2 p k :=
  funext fun a => Fin.ext (by match a with | ⟨0, _⟩ => rfl | ⟨1, _⟩ => rfl)

/-- The first contraction reads the transposed matrix at (k, q); the transpose reads its operand there at (q, k). -/
theorem ridx_v1_ix2 (p : Fin 30000) (q k : Fin 256) : idx_main_v0 (ridx_main_v1 (ix2 p q) k) = ix2 q k :=
  funext fun a => Fin.ext (by match a with | ⟨0, _⟩ => rfl | ⟨1, _⟩ => rfl)

/-- The first bias, spread to a row and then to all rows, is read for result entry (p, q) at q. -/
theorem bidx_v3_ix1 (p : Fin 30000) (q : Fin 256) : idx_main_v2 (idx_main_v3 (ix2 p q)) = ix1 q :=
  funext fun a => Fin.ext (by match a with | ⟨0, _⟩ => rfl)

/-- The second contraction reads its left operand, for result entry (p, q) and contraction position k, at (p, k). -/
theorem lidx_v6_ix2 (p : Fin 30000) (q k : Fin 256) : lidx_main_v6 (ix2 p q) k = ix2 p k :=
  funext fun a => Fin.ext (by match a with | ⟨0, _⟩ => rfl | ⟨1, _⟩ => rfl)

/-- The second contraction reads the transposed matrix at (k, q); the transpose reads its operand there at (q, k). -/
theorem ridx_v6_ix2 (p : Fin 30000) (q k : Fin 256) : idx_main_v5 (ridx_main_v6 (ix2 p q) k) = ix2 q k :=
  funext fun a => Fin.ext (by match a with | ⟨0, _⟩ => rfl | ⟨1, _⟩ => rfl)

/-- The second bias, spread to a row and then to all rows, is read for result entry (p, q) at q. -/
theorem bidx_v8_ix1 (p : Fin 30000) (q : Fin 256) : idx_main_v7 (idx_main_v8 (ix2 p q)) = ix1 q :=
  funext fun a => Fin.ext (by match a with | ⟨0, _⟩ => rfl)

/-! ## The two layers at an entry -/

/-- The first linear layer at entry (p, q): the sum over k of the input at (p, k) times the weight matrix at (q, k),
    plus the bias at q. The addition is the extended reals' (the ideal instance's `addf`); the sum is the
    contraction read at an index, its right factor carried through the transpose; the bias term is the spread
    array read back through both spreadings. -/
theorem wh_wt_at (x0 : (⟨S30000x256, .f32⟩ : BufTy).Contents (Elt Ideal)) (x12 : (⟨S256x256, .f32⟩ : BufTy).Contents (Elt Ideal))
    (x13 : (⟨S256, .f32⟩ : BufTy).Contents (Elt Ideal)) (p : Fin 30000) (q : Fin 256) :
    val_main_v4 (F := Ideal) x0 x12 x13 (ix2 p q) = (∑ k : Fin 256, x0 (ix2 p k) * x12 (ix2 q k)) + x13 (ix1 q) := by
  refine (val_main_v4_apply x0 x12 x13 (ix2 p q)).trans ?_
  refine (Ideal.addf_def _ _).trans ?_
  refine congrArg₂ (· + ·) ?_ ?_
  · refine (val_main_v1_apply x0 x12 (ix2 p q)).trans (Finset.sum_congr rfl fun k _ => ?_)
    refine congrArg₂ (· * ·) (congrArg x0 (lidx_v1_ix2 p q k)) ?_
    exact (val_main_v0_apply x12 _).trans (congrArg x12 (ridx_v1_ix2 p q k))
  · exact (val_main_v3_apply x13 _).trans ((val_main_v2_apply x13 _).trans (congrArg x13 (bidx_v3_ix1 p q)))

/-- The second linear layer at entry (p, q): the same reading over the second weight matrix and bias. -/
theorem wh_wd_at (x0 : (⟨S30000x256, .f32⟩ : BufTy).Contents (Elt Ideal)) (x14 : (⟨S256x256, .f32⟩ : BufTy).Contents (Elt Ideal))
    (x15 : (⟨S256, .f32⟩ : BufTy).Contents (Elt Ideal)) (p : Fin 30000) (q : Fin 256) :
    val_main_v9 (F := Ideal) x0 x14 x15 (ix2 p q) = (∑ k : Fin 256, x0 (ix2 p k) * x14 (ix2 q k)) + x15 (ix1 q) := by
  refine (val_main_v9_apply x0 x14 x15 (ix2 p q)).trans ?_
  refine (Ideal.addf_def _ _).trans ?_
  refine congrArg₂ (· + ·) ?_ ?_
  · refine (val_main_v6_apply x0 x14 (ix2 p q)).trans (Finset.sum_congr rfl fun k _ => ?_)
    refine congrArg₂ (· * ·) (congrArg x0 (lidx_v6_ix2 p q k)) ?_
    exact (val_main_v5_apply x14 _).trans (congrArg x14 (ridx_v6_ix2 p q k))
  · exact (val_main_v8_apply x15 _).trans ((val_main_v7_apply x15 _).trans (congrArg x15 (bidx_v8_ix1 p q)))

end Cert.ReferenceIdeal.LinearAt

end
-- ==== Proof.KernelArrays.lean ====
/-
  The two arrays the region of `KernelIdeal` writes, at the ideal instance: after the ten grid points each holds a
  linear layer of the word features — entry (P, q) is the sum over k of feat_word (P, k) · W (q, k), plus the bias at q —
  which is the value the reference's transpose, dot_general, broadcast and add compute (`val_main_v4`, `val_main_v9`).

  Point t's row block is rows 3000·t … 3000·t + 2999 of feat_word; the weight and bias windows are the whole arrays at
  every point (the bias row is the reshape of the bias vector made before the region). So what point t writes back is
  block t of the reference's array, and the ten blocks tile the 30000 rows.
-/
import proofs.«156106_j14087492731175_2_alg».proof.Proof.FrameDefsKI
import proofs.«156106_j14087492731175_2_alg».proof.Proof.FrameHostKI
import proofs.«156106_j14087492731175_2_alg».proof.Proof.PayloadAt
import proofs.«156106_j14087492731175_2_alg».proof.Proof.RefLinearAt
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Arrays

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the grid: the row windows (the features and the two outputs) sit at block
    (t, 0), the weight and bias windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks -/

/-- The feature window's block at point `t` is rows `3000 t … 3000 t + 2999` of the argument. -/
theorem xblk_apply (c : Dev nD) (t : Fin cfg0.N) (x : S3000x256.Idx) (k : S30000x256.Idx)
    (hk0 : (k 0).val = 3000 * t.val + (x 0).val) (hk1 : (k 1).val = (x 1).val) :
    (iblk m c 0 t : Vec Ideal S3000x256 .f32) x = (m ((c : Thread nD τ).loc main_arg0) : S30000x256.Idx → Elt Ideal .f32) k := by
  obtain ⟨h0, h1, -⟩ := idx_facts t
  unfold iblk
  rw [View.read_apply]
  show V m c main_arg0 _ = _
  rw [V_main_arg0]
  refine congrArg _ ?_
  funext a
  apply Fin.ext
  match a with
  | ⟨0, _⟩ => show win0_0.index t 0 * 3000 + 1 * (x 0).val = (k 0).val; rw [h0, hk0]; omega
  | ⟨1, _⟩ => show win0_0.index t 1 * 256 + 1 * (x 1).val = (k 1).val; rw [h1, hk1]; omega

/-- The first weight window's block is the whole weight matrix, at every point. -/
theorem w1blk_apply (c : Dev nD) (t : Fin cfg0.N) (x : S256x256.Idx) :
    (iblk m c 1 t : Vec Ideal S256x256 .f32) x = (m ((c : Thread nD τ).loc main_arg12) : S256x256.Idx → Elt Ideal .f32) x := by
  obtain ⟨-, -, h0, h1, -⟩ := idx_facts t
  unfold iblk
  rw [View.read_apply]
  show V m c main_arg12 _ = _
  rw [V_main_arg12]
  refine congrArg _ ?_
  funext a
  apply Fin.ext
  match a with
  | ⟨0, _⟩ => show win0_1.index t 0 * 256 + 1 * (x 0).val = (x 0).val; rw [h0]; omega
  | ⟨1, _⟩ => show win0_1.index t 1 * 256 + 1 * (x 1).val = (x 1).val; rw [h1]; omega

/-- The second weight window's. -/
theorem w2blk_apply (c : Dev nD) (t : Fin cfg0.N) (x : S256x256.Idx) :
    (iblk m c 3 t : Vec Ideal S256x256 .f32) x = (m ((c : Thread nD τ).loc main_arg14) : S256x256.Idx → Elt Ideal .f32) x := by
  obtain ⟨-, -, -, -, -, -, h0, h1, -⟩ := idx_facts t
  unfold iblk
  rw [View.read_apply]
  show V m c main_arg14 _ = _
  rw [V_main_arg14]
  refine congrArg _ ?_
  funext a
  apply Fin.ext
  match a with
  | ⟨0, _⟩ => show win0_3.index t 0 * 256 + 1 * (x 0).val = (x 0).val; rw [h0]; omega
  | ⟨1, _⟩ => show win0_3.index t 1 * 256 + 1 * (x 1).val = (x 1).val; rw [h1]; omega

/-- The first bias row as the region finds it: the bias vector cast to one row. -/
theorem V_row1 (c : Dev nD) :
    (V m c main_v0 : S1x256.Idx → Elt Ideal .f32) = shapeCast S1x256 (m ((c : Thread nD τ).loc main_arg13)) shapeCasts_S256_S1x256 := by
  show StableHlo.after hostOps0 (fun b => m (c, b)) (Proc.devRef .tc main_v0) = _
  after_results
  rfl

/-- The second bias row. -/
theorem V_row2 (c : Dev nD) :
    (V m c main_v1 : S1x256.Idx → Elt Ideal .f32) = shapeCast S1x256 (m ((c : Thread nD τ).loc main_arg15)) shapeCasts_S256_S1x256 := by
  show StableHlo.after hostOps0 (fun b => m (c, b)) (Proc.devRef .tc main_v1) = _
  after_results
  rfl

/-- The first bias window's block at any point, read at column `q`: the bias vector at `q`. -/
theorem b1blk_apply (c : Dev nD) (t : Fin cfg0.N) (q : Fin 256) :
    (iblk m c 2 t : Vec Ideal S1x256 .f32) (ix2 (0 : Fin 1) q) = (m ((c : Thread nD τ).loc main_arg13) : S256.Idx → Elt Ideal .f32) (ix1 q) := by
  obtain ⟨-, -, -, -, h0, h1, -⟩ := idx_facts t
  unfold iblk
  rw [View.read_apply]
  have e : ((cfg0.win 2).blk t).view.emb (ix2 (0 : Fin 1) q) = (ix2 (0 : Fin 1) q : S1x256.Idx) := by
    funext a
    apply Fin.ext
    match a with
    | ⟨0, _⟩ => show win0_2.index t 0 * 1 + 1 * 0 = 0; rw [h0]
    | ⟨1, _⟩ => show win0_2.index t 1 * 256 + 1 * q.val = q.val; rw [h1]; omega
  rw [e]
  show (V m c main_v0 : S1x256.Idx → Elt Ideal .f32) (ix2 (0 : Fin 1) q) = _
  rw [V_row1]
  exact shapeCast_a_1a_apply _ shapeCasts_S256_S1x256 (0 : Fin 1) q

/-- The second bias window's. -/
theorem b2blk_apply (c : Dev nD) (t : Fin cfg0.N) (q : Fin 256) :
    (iblk m c 4 t : Vec Ideal S1x256 .f32) (ix2 (0 : Fin 1) q) = (m ((c : Thread nD τ).loc main_arg15) : S256.Idx → Elt Ideal .f32) (ix1 q) := by
  obtain ⟨-, -, -, -, -, -, -, -, h0, h1, -⟩ := idx_facts t
  unfold iblk
  rw [View.read_apply]
  have e : ((cfg0.win 4).blk t).view.emb (ix2 (0 : Fin 1) q) = (ix2 (0 : Fin 1) q : S1x256.Idx) := by
    funext a
    apply Fin.ext
    match a with
    | ⟨0, _⟩ => show win0_4.index t 0 * 1 + 1 * 0 = 0; rw [h0]
    | ⟨1, _⟩ => show win0_4.index t 1 * 256 + 1 * q.val = q.val; rw [h1]; omega
  rw [e]
  show (V m c main_v1 : S1x256.Idx → Elt Ideal .f32) (ix2 (0 : Fin 1) q) = _
  rw [V_row2]
  exact shapeCast_a_1a_apply _ shapeCasts_S256_S1x256 (0 : Fin 1) q

/-! ## What the arrays end holding -/

/-- The first relation's linear layer of the word features, as the reference computes it. -/
abbrev whWt (c : Dev nD) : S30000x256.Idx → Elt Ideal .f32 :=
  Cert.ReferenceIdeal.Read.val_main_v4 (F := Ideal) (m ((c : Thread nD τ).loc main_arg0)) (m ((c : Thread nD τ).loc main_arg12))
    (m ((c : Thread nD τ).loc main_arg13))

/-- The second relation's. -/
abbrev whWd (c : Dev nD) : S30000x256.Idx → Elt Ideal .f32 :=
  Cert.ReferenceIdeal.Read.val_main_v9 (F := Ideal) (m ((c : Thread nD τ).loc main_arg0)) (m ((c : Thread nD τ).loc main_arg14))
    (m ((c : Thread nD τ).loc main_arg15))

/-- An element of point `t`'s output block sits at row `3000 t + p`. -/
theorem emb5 (t : Fin cfg0.N) (p : Fin 3000) (q : Fin 256) (hb : 3000 * t.val + p.val < 30000) :
    ((cfg0.win 5).blk t).view.emb (ix2 p q) = (ix2 ⟨3000 * t.val + p.val, hb⟩ q : S30000x256.Idx) := by
  obtain ⟨-, -, -, -, -, -, -, -, -, -, h0, h1, -⟩ := idx_facts t
  funext a
  apply Fin.ext
  match a with
  | ⟨0, _⟩ => show win0_5.index t 0 * 3000 + 1 * p.val = 3000 * t.val + p.val; rw [h0]; omega
  | ⟨1, _⟩ => show win0_5.index t 1 * 256 + 1 * q.val = q.val; rw [h1]; omega

theorem emb6 (t : Fin cfg0.N) (p : Fin 3000) (q : Fin 256) (hb : 3000 * t.val + p.val < 30000) :
    ((cfg0.win 6).blk t).view.emb (ix2 p q) = (ix2 ⟨3000 * t.val + p.val, hb⟩ q : S30000x256.Idx) := by
  obtain ⟨-, -, -, -, -, -, -, -, -, -, -, -, h0, h1⟩ := idx_facts t
  funext a
  apply Fin.ext
  match a with
  | ⟨0, _⟩ => show win0_6.index t 0 * 3000 + 1 * p.val = 3000 * t.val + p.val; rw [h0]; omega
  | ⟨1, _⟩ => show win0_6.index t 1 * 256 + 1 * q.val = q.val; rw [h1]; omega

/-- What point `t` writes back into the first output array is block `t` of the reference's linear layer: entry by
    entry both are the sum over `k` of feature (3000 t + p, k) times weight (q, k), plus the bias at `q`. -/
theorem flushed5 (c : Dev nD) (t : Fin cfg0.N) :
    (dats m 0 c).flushed 5 t = ((cfg0.win 5).blk t).view.read (Elt Ideal) (whWt m c) := by
  have hN : cfg0.N = 10 := N_0
  show (cfg0.win 5).cut (grid0.coords t) ((dats m 0 c).after 5 t) = _
  rw [after5]
  unfold outA
  rw [View.canon_unit_zero hz]
  simp only [View.ld_unit_zero (S := S3000x256) hz, View.ld_unit_zero (S := S256x256) hz, View.ld_unit_zero (S := S1x256) hz]
  funext j
  obtain ⟨p, q, rfl⟩ : ∃ (p : Fin 3000) (q : Fin 256), j = ix2 p q := ⟨j 0, j 1, eq_ix2 j⟩
  have hb : 3000 * t.val + p.val < 30000 := by have := t.isLt; have := p.isLt; omega
  rw [View.read_apply, emb5 t p q hb]
  refine (Cert.KernelIdeal.PayloadAt.pay2_at _ _ _ p q).trans ?_
  refine Eq.trans ?_ (Cert.ReferenceIdeal.LinearAt.wh_wt_at _ _ _ ⟨3000 * t.val + p.val, hb⟩ q).symm
  refine congr (congrArg _ (Finset.sum_congr rfl fun k _ => ?_)) (b1blk_apply m c t q)
  rw [xblk_apply m c t (ix2 p k) (ix2 ⟨3000 * t.val + p.val, hb⟩ k) rfl rfl, w1blk_apply m c t (ix2 q k)]

/-- The same for the second output array. -/
theorem flushed6 (c : Dev nD) (t : Fin cfg0.N) :
    (dats m 0 c).flushed 6 t = ((cfg0.win 6).blk t).view.read (Elt Ideal) (whWd m c) := by
  have hN : cfg0.N = 10 := N_0
  show (cfg0.win 6).cut (grid0.coords t) ((dats m 0 c).after 6 t) = _
  rw [after6]
  unfold outB
  rw [View.canon_unit_zero hz]
  simp only [View.ld_unit_zero (S := S3000x256) hz, View.ld_unit_zero (S := S256x256) hz, View.ld_unit_zero (S := S1x256) hz]
  funext j
  obtain ⟨p, q, rfl⟩ : ∃ (p : Fin 3000) (q : Fin 256), j = ix2 p q := ⟨j 0, j 1, eq_ix2 j⟩
  have hb : 3000 * t.val + p.val < 30000 := by have := t.isLt; have := p.isLt; omega
  rw [View.read_apply, emb6 t p q hb]
  refine (Cert.KernelIdeal.PayloadAt.pay3_at _ _ _ p q).trans ?_
  refine Eq.trans ?_ (Cert.ReferenceIdeal.LinearAt.wh_wd_at _ _ _ ⟨3000 * t.val + p.val, hb⟩ q).symm
  refine congr (congrArg _ (Finset.sum_congr rfl fun k _ => ?_)) (b2blk_apply m c t q)
  rw [xblk_apply m c t (ix2 p k) (ix2 ⟨3000 * t.val + p.val, hb⟩ k) rfl rfl, w2blk_apply m c t (ix2 q k)]

/-- An index of the array is in point `t`'s block of the first output iff each coordinate is in the block's range. -/
theorem mem_blk5 (t : Fin cfg0.N) (i : S30000x256.Idx) :
    i ∈ ((cfg0.win 5).blk t).view.set ↔ ∀ a : Fin 2, win0_5.index t a * S3000x256.size a ≤ (i a).val ∧ (i a).val < win0_5.index t a * S3000x256.size a + S3000x256.size a := by
  show i ∈ ((View.whole main_v2_0).slice (win0_5.rect t)).set ↔ _
  rw [View.set_slice_whole, Rect.mem_set_unit]
  exact Iff.rfl

theorem mem_blk6 (t : Fin cfg0.N) (i : S30000x256.Idx) :
    i ∈ ((cfg0.win 6).blk t).view.set ↔ ∀ a : Fin 2, win0_6.index t a * S3000x256.size a ≤ (i a).val ∧ (i a).val < win0_6.index t a * S3000x256.size a + S3000x256.size a := by
  show i ∈ ((View.whole main_v2_1).slice (win0_6.rect t)).set ↔ _
  rw [View.set_slice_whole, Rect.mem_set_unit]
  exact Iff.rfl

/-- Row `r` is covered by the point `r / 3000`. -/
theorem cover5 (i : S30000x256.Idx) : ∃ t : Fin cfg0.N, (cfg0.win 5).flush t = true ∧ i ∈ ((cfg0.win 5).blk t).view.set := by
  have hN : cfg0.N = 10 := N_0
  have hi0 : (i 0).val < 30000 := (i 0).isLt
  have hi1 : (i 1).val < 256 := (i 1).isLt
  let t : Fin cfg0.N := ⟨(i 0).val / 3000, by rw [hN]; omega⟩
  obtain ⟨-, -, -, -, -, -, -, -, -, -, h0, h1, -⟩ := idx_facts t
  refine ⟨t, flush0_5 t, ?_⟩
  rw [mem_blk5]
  intro a
  match a with
  | ⟨0, _⟩ => show win0_5.index t 0 * 3000 ≤ (i 0).val ∧ (i 0).val < win0_5.index t 0 * 3000 + 3000
              rw [h0]; show (i 0).val / 3000 * 3000 ≤ (i 0).val ∧ (i 0).val < (i 0).val / 3000 * 3000 + 3000; omega
  | ⟨1, _⟩ => show win0_5.index t 1 * 256 ≤ (i 1).val ∧ (i 1).val < win0_5.index t 1 * 256 + 256
              rw [h1]; omega

theorem cover6 (i : S30000x256.Idx) : ∃ t : Fin cfg0.N, (cfg0.win 6).flush t = true ∧ i ∈ ((cfg0.win 6).blk t).view.set := by
  have hN : cfg0.N = 10 := N_0
  have hi0 : (i 0).val < 30000 := (i 0).isLt
  have hi1 : (i 1).val < 256 := (i 1).isLt
  let t : Fin cfg0.N := ⟨(i 0).val / 3000, by rw [hN]; omega⟩
  obtain ⟨-, -, -, -, -, -, -, -, -, -, -, -, h0, h1⟩ := idx_facts t
  refine ⟨t, flush0_6 t, ?_⟩
  rw [mem_blk6]
  intro a
  match a with
  | ⟨0, _⟩ => show win0_6.index t 0 * 3000 ≤ (i 0).val ∧ (i 0).val < win0_6.index t 0 * 3000 + 3000
              rw [h0]; show (i 0).val / 3000 * 3000 ≤ (i 0).val ∧ (i 0).val < (i 0).val / 3000 * 3000 + 3000; omega
  | ⟨1, _⟩ => show win0_6.index t 1 * 256 ≤ (i 1).val ∧ (i 1).val < win0_6.index t 1 * 256 + 256
              rw [h1]; omega

/-- After the ten points the first output array holds the first relation's linear layer. -/
theorem final5 (c : Dev nD) : (dats m 0 c).arrAt 5 cfg0.N = whWt m c :=
  (dats m 0 c).arrAt_eq_of_cover 5 (whWt m c) (fun t _ => flushed5 m c t) cover5

/-- And the second the second relation's. -/
theorem final6 (c : Dev nD) : (dats m 0 c).arrAt 6 cfg0.N = whWd m c :=
  (dats m 0 c).arrAt_eq_of_cover 6 (whWd m c) (fun t _ => flushed6 m c t) cover6

end Cert.KernelIdeal.Arrays

end
-- ==== Proof.KernelResults.lean ====
/-
  The results of `KernelIdeal`'s @main at the ideal instance, as the reference's stages of the argument arrays.

  After the region the program applies 97 host operations to the argument arrays and the two arrays the region wrote.
  Read back, the topic result is: gather rows of the first array by the (wrapped) word indices, scale each by its edge
  weight, scatter-add by topic, divide by max(in-degree, 1); the document result adds two such means — one over the
  second array, one over the small third linear layer of the topic features — and clamps at zero. The reference applies
  the very same operations to its own two linear layers, and those are the arrays the region wrote (the arrays module);
  changes of float format are the identity here. So the two programs' result terms are one term.
-/
import proofs.«156106_j14087492731175_2_alg».proof.Proof.FrameRunKI
import proofs.«156106_j14087492731175_2_alg».proof.Proof.KernelArrays

set_option maxRecDepth 16384

noncomputable section

namespace Cert.KernelIdeal.Results

open Cert.KernelIdeal Cert.KernelIdeal.Gen Cert.KernelIdeal.Fr Cert.KernelIdeal.Arrays
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the later operations find -/

/-- No window stands on `main_arg1` and the reshapes do not write it: the later operations find it as launched. -/
theorem found_arg1 (c : Dev nD) (A) :
    Pipeline.withArrays (cfgs 0).spec c (V0 m c) A (Proc.devRef .tc main_arg1) = m ((c : Thread nD τ).loc main_arg1) :=
  (Pipeline.withArrays_of_ne _ c (V0 m c) A main_arg1 (by exact (by decide : ∀ w, Pipeline.arrRef spec0 w ≠ main_arg1))).trans (V_main_arg1 m c)
/-- No window stands on `main_arg3` and the reshapes do not write it: the later operations find it as launched. -/
theorem found_arg3 (c : Dev nD) (A) :
    Pipeline.withArrays (cfgs 0).spec c (V0 m c) A (Proc.devRef .tc main_arg3) = m ((c : Thread nD τ).loc main_arg3) :=
  (Pipeline.withArrays_of_ne _ c (V0 m c) A main_arg3 (by exact (by decide : ∀ w, Pipeline.arrRef spec0 w ≠ main_arg3))).trans (V_main_arg3 m c)
/-- No window stands on `main_arg4` and the reshapes do not write it: the later operations find it as launched. -/
theorem found_arg4 (c : Dev nD) (A) :
    Pipeline.withArrays (cfgs 0).spec c (V0 m c) A (Proc.devRef .tc main_arg4) = m ((c : Thread nD τ).loc main_arg4) :=
  (Pipeline.withArrays_of_ne _ c (V0 m c) A main_arg4 (by exact (by decide : ∀ w, Pipeline.arrRef spec0 w ≠ main_arg4))).trans (V_main_arg4 m c)
/-- No window stands on `main_arg5` and the reshapes do not write it: the later operations find it as launched. -/
theorem found_arg5 (c : Dev nD) (A) :
    Pipeline.withArrays (cfgs 0).spec c (V0 m c) A (Proc.devRef .tc main_arg5) = m ((c : Thread nD τ).loc main_arg5) :=
  (Pipeline.withArrays_of_ne _ c (V0 m c) A main_arg5 (by exact (by decide : ∀ w, Pipeline.arrRef spec0 w ≠ main_arg5))).trans (V_main_arg5 m c)
/-- No window stands on `main_arg6` and the reshapes do not write it: the later operations find it as launched. -/
theorem found_arg6 (c : Dev nD) (A) :
    Pipeline.withArrays (cfgs 0).spec c (V0 m c) A (Proc.devRef .tc main_arg6) = m ((c : Thread nD τ).loc main_arg6) :=
  (Pipeline.withArrays_of_ne _ c (V0 m c) A main_arg6 (by exact (by decide : ∀ w, Pipeline.arrRef spec0 w ≠ main_arg6))).trans (V_main_arg6 m c)
/-- No window stands on `main_arg7` and the reshapes do not write it: the later operations find it as launched. -/
theorem found_arg7 (c : Dev nD) (A) :
    Pipeline.withArrays (cfgs 0).spec c (V0 m c) A (Proc.devRef .tc main_arg7) = m ((c : Thread nD τ).loc main_arg7) :=
  (Pipeline.withArrays_of_ne _ c (V0 m c) A main_arg7 (by exact (by decide : ∀ w, Pipeline.arrRef spec0 w ≠ main_arg7))).trans (V_main_arg7 m c)
/-- No window stands on `main_arg8` and the reshapes do not write it: the later operations find it as launched. -/
theorem found_arg8 (c : Dev nD) (A) :
    Pipeline.withArrays (cfgs 0).spec c (V0 m c) A (Proc.devRef .tc main_arg8) = m ((c : Thread nD τ).loc main_arg8) :=
  (Pipeline.withArrays_of_ne _ c (V0 m c) A main_arg8 (by exact (by decide : ∀ w, Pipeline.arrRef spec0 w ≠ main_arg8))).trans (V_main_arg8 m c)
/-- No window stands on `main_arg9` and the reshapes do not write it: the later operations find it as launched. -/
theorem found_arg9 (c : Dev nD) (A) :
    Pipeline.withArrays (cfgs 0).spec c (V0 m c) A (Proc.devRef .tc main_arg9) = m ((c : Thread nD τ).loc main_arg9) :=
  (Pipeline.withArrays_of_ne _ c (V0 m c) A main_arg9 (by exact (by decide : ∀ w, Pipeline.arrRef spec0 w ≠ main_arg9))).trans (V_main_arg9 m c)
/-- No window stands on `main_arg10` and the reshapes do not write it: the later operations find it as launched. -/
theorem found_arg10 (c : Dev nD) (A) :
    Pipeline.withArrays (cfgs 0).spec c (V0 m c) A (Proc.devRef .tc main_arg10) = m ((c : Thread nD τ).loc main_arg10) :=
  (Pipeline.withArrays_of_ne _ c (V0 m c) A main_arg10 (by exact (by decide : ∀ w, Pipeline.arrRef spec0 w ≠ main_arg10))).trans (V_main_arg10 m c)
/-- No window stands on `main_arg11` and the reshapes do not write it: the later operations find it as launched. -/
theorem found_arg11 (c : Dev nD) (A) :
    Pipeline.withArrays (cfgs 0).spec c (V0 m c) A (Proc.devRef .tc main_arg11) = m ((c : Thread nD τ).loc main_arg11) :=
  (Pipeline.withArrays_of_ne _ c (V0 m c) A main_arg11 (by exact (by decide : ∀ w, Pipeline.arrRef spec0 w ≠ main_arg11))).trans (V_main_arg11 m c)
/-- No window stands on `main_arg16` and the reshapes do not write it: the later operations find it as launched. -/
theorem found_arg16 (c : Dev nD) (A) :
    Pipeline.withArrays (cfgs 0).spec c (V0 m c) A (Proc.devRef .tc main_arg16) = m ((c : Thread nD τ).loc main_arg16) :=
  (Pipeline.withArrays_of_ne _ c (V0 m c) A main_arg16 (by exact (by decide : ∀ w, Pipeline.arrRef spec0 w ≠ main_arg16))).trans (V_main_arg16 m c)
/-- No window stands on `main_arg17` and the reshapes do not write it: the later operations find it as launched. -/
theorem found_arg17 (c : Dev nD) (A) :
    Pipeline.withArrays (cfgs 0).spec c (V0 m c) A (Proc.devRef .tc main_arg17) = m ((c : Thread nD τ).loc main_arg17) :=
  (Pipeline.withArrays_of_ne _ c (V0 m c) A main_arg17 (by exact (by decide : ∀ w, Pipeline.arrRef spec0 w ≠ main_arg17))).trans (V_main_arg17 m c)

/-- The first array the region wrote, as the later operations find it: the first relation's linear layer. -/
theorem found_out1 (c : Dev nD) :
    Pipeline.withArrays (cfgs 0).spec c (V0 m c) (fun w => (dats m 0 c).arrAt w (cfgs 0).N) (Proc.devRef .tc main_v2_0) = whWt m c :=
  (Pipeline.withArrays_arr spec0 launch0.win.arr_inj c _ _ 5).trans (final5 m c)

/-- The second: the second relation's. -/
theorem found_out2 (c : Dev nD) :
    Pipeline.withArrays (cfgs 0).spec c (V0 m c) (fun w => (dats m 0 c).arrAt w (cfgs 0).N) (Proc.devRef .tc main_v2_1) = whWd m c :=
  (Pipeline.withArrays_arr spec0 launch0.win.arr_inj c _ _ 6).trans (final6 m c)

/-- A widening of the float format is the identity on extended reals. -/
theorem extf_id {S : Shape} {φ : FTy} (ψ : FTy) (v : FVec Ideal S φ) (h : φ.bits < ψ.bits) : extf ψ v h = v := rfl
/-- So is a narrowing. -/
theorem truncf_id {S : Shape} {φ : FTy} (ψ : FTy) (v : FVec Ideal S φ) (h : ψ.bits < φ.bits) : truncf ψ v h = v := rfl

/-! ## The two computed results -/

set_option maxHeartbeats 4000000 in
/-- The topic result: the reference's stage of the argument arrays. -/
theorem topic_eq (c : Dev nD) :
    Pipeline.afterTail₀ cfgs (dats m) 0 (V0 m) [hostOps1, hostOps1_1] c main_v32
      = Cert.ReferenceIdeal.Read.val_main_v36 (F := Ideal) (m ((c : Thread nD τ).loc main_arg0)) (m ((c : Thread nD τ).loc main_arg3)) (m ((c : Thread nD τ).loc main_arg4)) (m ((c : Thread nD τ).loc main_arg9)) (m ((c : Thread nD τ).loc main_arg12)) (m ((c : Thread nD τ).loc main_arg13)) := by
  unfold Pipeline.afterTail₀
  simp only [List.flatten_cons, List.flatten_nil, List.append_nil, hostOps1, hostOps1_1, List.cons_append, List.nil_append]
  after_results_simp
  rw [found_arg3 m c, found_arg4 m c, found_arg9 m c, found_out1 m c]
  rfl

set_option maxHeartbeats 4000000 in
/-- The document result: the reference's stage of the argument arrays. -/
theorem doc_eq (c : Dev nD) :
    Pipeline.afterTail₀ cfgs (dats m) 0 (V0 m) [hostOps1, hostOps1_1] c main_v79
      = Cert.ReferenceIdeal.Read.val_main_v82 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17)) := by
  unfold Pipeline.afterTail₀
  simp only [List.flatten_cons, List.flatten_nil, List.append_nil, hostOps1, hostOps1_1, List.cons_append, List.nil_append]
  after_results_simp
  rw [found_arg1 m c, found_arg5 m c, found_arg6 m c, found_arg7 m c, found_arg8 m c, found_arg10 m c, found_arg11 m c,
    found_arg16 m c, found_arg17 m c, found_out2 m c]
  rfl

/-! ## The run, read -/

/-- Every weakly fair execution of @main terminates; afterwards the word features are as launched, the topic and
    document results are the reference's stages of the argument arrays, and every argument is unchanged. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v32)
          = Cert.ReferenceIdeal.Read.val_main_v36 (F := Ideal) (m ((c : Thread nD τ).loc main_arg0)) (m ((c : Thread nD τ).loc main_arg3)) (m ((c : Thread nD τ).loc main_arg4)) (m ((c : Thread nD τ).loc main_arg9)) (m ((c : Thread nD τ).loc main_arg12)) (m ((c : Thread nD τ).loc main_arg13))
      ∧ r.2.mem ((c.tc : Thread nD τ).loc main_v79)
          = Cert.ReferenceIdeal.Read.val_main_v82 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
    ⟨(args_kept m (dats m) (A_eq m) r h c).1,
     ((h c).2 main_v32 (Pipeline.mem_restRefs_of main_v32 (by decide) (by decide))).trans (topic_eq m c),
     ((h c).2 main_v79 (Pipeline.mem_restRefs_of main_v79 (by decide) (by decide))).trans (doc_eq m c),
     args_kept m (dats m) (A_eq m) r h c⟩) (run_main m ρ)

end Cert.KernelIdeal.Results

end
-- ==== Proof.lean ====
/-
  A heterogeneous graph layer over words, topics and documents: a linear layer per relation on the source features,
  each message scaled by its edge weight and averaged per destination (sum over incoming edges divided by
  max(in-degree, 1)), the two document means added and clamped at zero; the word features are returned as they came.

  The kernel fuses the two linear layers over the word features into one pallas_call on ten row blocks of 3000 (bf16
  inputs to the matrix unit, bf16 outputs) and leaves the small third linear layer and all gathers, scatter-adds and
  divisions to the host; the reference does everything on the host in f32. At the ideal instance a change of float
  format is the identity, so the arrays the region writes are the reference's two linear layers entry by entry
  (a sum over k of feature (P, k) · weight (q, k), plus the bias at q, on both sides — a term identity, nothing to
  distribute or cancel, so finiteness of the inputs is never used), and the later host operations are the
  reference's own, applied to the same arrays: the results are equal term by term.

  The three frames: the two kernel programs by the launch of the one region around its host operations (the body
  by symbolic execution on whole staging buffers, the ninety-seven later operations writing no argument and no array
  of a window); the reference's by its run read back. The idealization rewrote nothing, so `preserves` has no conjunct.
-/
import proofs.«156106_j14087492731175_2_alg».proof.Defs
import proofs.«156106_j14087492731175_2_alg».proof.Proof.Gen.Kernel
import proofs.«156106_j14087492731175_2_alg».proof.Proof.Gen.KernelIdeal
import proofs.«156106_j14087492731175_2_alg».proof.Proof.Gen.ReferenceIdeal
import proofs.«156106_j14087492731175_2_alg».proof.Proof.Gen.Pre_finite_inputs
import proofs.«156106_j14087492731175_2_alg».proof.Proof.Gen.ReferenceIdeal.Read
import proofs.«156106_j14087492731175_2_alg».proof.Proof.FrameRunK
import proofs.«156106_j14087492731175_2_alg».proof.Proof.FrameRunKI
import proofs.«156106_j14087492731175_2_alg».proof.Proof.KernelResults
import Idealize.ShloMosaic.Adequacy
import Idealize.ShloMosaic.Init

noncomputable section

namespace Cert.Proof

open Idealize.ShloMosaic Idealize.SL.Sem

/-- The kernel as printed runs to the end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run read back, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories agreeing on the arguments both programs end with the word features as launched and with the topic
    and document results at the reference's stages of the arguments: the kernel's by the region's two arrays being
    the reference's linear layers, the reference's by its run. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  refine ⟨(h c).1.trans a0, (h c).2.1.trans ?_, (h c).2.2.1.trans ?_, (h c).2.2.2⟩
  · rw [Cert.ReferenceIdeal.Read.val_main_v36_eq, a0, a3, a4, a9, a12, a13]
  · rw [Cert.ReferenceIdeal.Read.val_main_v82_eq, a0, a1, a5, a6, a7, a8, a10, a11, a14, a15, a16, a17]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
